-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x44 : Shape := ⟨2, ![500000, 44]⟩
abbrev S2000000x12 : Shape := ⟨2, ![2000000, 12]⟩
abbrev S2x2000000 : Shape := ⟨2, ![2, 2000000]⟩
abbrev S500000 : Shape := ⟨1, ![500000]⟩
abbrev S12x44 : Shape := ⟨2, ![12, 44]⟩
abbrev S44 : Shape := ⟨1, ![44]⟩
abbrev S44x64 : Shape := ⟨2, ![44, 64]⟩
abbrev S64 : Shape := ⟨1, ![64]⟩
abbrev S64x64 : Shape := ⟨2, ![64, 64]⟩
abbrev S12x64 : Shape := ⟨2, ![12, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S500000x44 : S_.BroadcastsInDim S500000x44 (![] : Fin 0 → Fin S500000x44.rank)
  reducesTo_S500000x44_S_d0_1 : S500000x44.ReducesTo [0, 1] S_
  h_S_ : 0 < S_.numel
  bcast_S_S2000000x12 : S_.BroadcastsInDim S2000000x12 (![] : Fin 0 → Fin S2000000x12.rank)
  reducesTo_S2000000x12_S_d0_1 : S2000000x12.ReducesTo [0, 1] S_
  bcast_S_S12x44 : S_.BroadcastsInDim S12x44 (![] : Fin 0 → Fin S12x44.rank)
  reducesTo_S12x44_S_d0_1 : S12x44.ReducesTo [0, 1] S_
  bcast_S_S44 : S_.BroadcastsInDim S44 (![] : Fin 0 → Fin S44.rank)
  reducesTo_S44_S_d0 : S44.ReducesTo [0] S_
  bcast_S_S44x64 : S_.BroadcastsInDim S44x64 (![] : Fin 0 → Fin S44x64.rank)
  reducesTo_S44x64_S_d0_1 : S44x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S12x64 : S_.BroadcastsInDim S12x64 (![] : Fin 0 → Fin S12x64.rank)
  reducesTo_S12x64_S_d0_1 : S12x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S64 .f32) (main_arg10 : FVec F S12x64 .f32) (main_arg11 : FVec F S64 .f32) (main_arg12 : FVec F S64x128 .f32) (main_arg13 : FVec F S128 .f32) (main_arg14 : FVec F S128x128 .f32) (main_arg15 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S12x64 .f32 := Host.absf main_arg10
  let main_cst_14 : FVec F S_ .f32 := constant S_ .f32 0x7F800000#32
  let main_v40 : FVec F S12x64 .f32 := broadcastInDim S12x64 ![] bcast_S_S12x64 main_cst_14
  let main_v41 : IVec S12x64 1 := cmpf .olt main_v39 main_v40
  let main_c_15 : IVec S_ 1 := constantI S_ 1 1#1
  let main_v42 : IVec S_ 1 := (fun x v => Host.reduce IntOp.andi x v reducesTo_S12x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_v48 main_v49 main_v50

def fn_part1 {F : FTy → Type} [FloatOps F] (main_arg6 : FVec F S44x64 .f32) (main_arg7 : FVec F S64 .f32) (main_arg8 : FVec F S64x64 .f32) (main_arg9 : FVec F S64 .f32) (main_arg10 : FVec F S12x64 .f32) (main_arg11 : FVec F S64 .f32) (main_arg12 : FVec F S64x128 .f32) (main_arg13 : FVec F S128 .f32) (main_arg14 : FVec F S128x128 .f32) (main_arg15 : FVec F S128 .f32) (main_v13 : IVec S_ 1) (main_v16 : IVec S44 1) : IVec S_ 1 :=
  let main_c_5 : IVec S_ 1 := constantI S_ 1 1#1
  let main_v17 : IVec S_ 1 := (fun x v => Host.reduce IntOp.andi x v reducesTo_S44_S_d0 h_S_) main_v16 main_c_5
  let main_v18 : IVec S_ 1 := andi main_v13 main_v17
  let main_v19 : FVec F S44x64 .f32 := Host.absf main_arg6
  let main_cst_6 : FVec F S_ .f32 := constant S_ .f32 0x7F800000#32
  let main_v20 : FVec F S44x64 .f32 := broadcastInDim S44x64 ![] bcast_S_S44x64 main_cst_6
  let main_v21 : IVec S44x64 1 := cmpf .olt main_v19 main_v20
  let main_c_7 : IVec S_ 1 := constantI S_ 1 1#1
  let main_v22 : IVec S_ 1 := (fun x v => Host.reduce IntOp.andi x v reducesTo_S44x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S500000x44 .f32) (main_arg1 : FVec F S2000000x12 .f32) (main_arg2 : IVec S2x2000000 32) (main_arg3 : IVec S500000 32) (main_arg4 : FVec F S12x44 .f32) (main_arg5 : FVec F S44 .f32) (main_arg6 : FVec F S44x64 .f32) (main_arg7 : FVec F S64 .f32) (main_arg8 : FVec F S64x64 .f32) (main_arg9 : FVec F S64 .f32) (main_arg10 : FVec F S12x64 .f32) (main_arg11 : FVec F S64 .f32) (main_arg12 : FVec F S64x128 .f32) (main_arg13 : FVec F S128 .f32) (main_arg14 : FVec F S128x128 .f32) (main_arg15 : FVec F S128 .f32) : IVec S_ 1 :=
  let main_v0 : FVec F S500000x44 .f32 := Host.absf main_arg0
  let main_cst : FVec F S_ .f32 := constant S_ .f32 0x7F800000#32
  let main_v1 : FVec F S500000x44 .f32 := broadcastInDim S500000x44 ![] bcast_S_S500000x44 main_cst
  let main_v2 : IVec S500000x44 1 := cmpf .olt main_v0 main_v1
  let main_c : IVec S_ 1 := constantI S_ 1 1#1
  let main_v3 : IVec S_ 1 := (fun x v => Host.reduce IntOp.andi x v reducesTo_S500000x44_S_d0_1 h_S_) main_v2 main_c
  let main_v4 : FVec F S2000000x12 .f32 := Host.absf main_arg1
  let main_cst_0 : FVec F S_ .f32 := constant S_ .f32 0x7F800000#32
  let main_v5 : FVec F S2000000x12 .f32 := broadcastInDim S2000000x12 ![] bcast_S_S2000000x12 main_cst_0
  let main_v6 : IVec S2000000x12 1 := cmpf .olt main_v4 main_v5
  let main_c_1 : IVec S_ 1 := constantI S_ 1 1#1
  let main_v7 : IVec S_ 1 := (fun x v => Host.reduce IntOp.andi x v reducesTo_S2000000x12_S_d0_1 h_S_) main_v6 main_c_1
  let main_v8 : IVec S_ 1 := andi main_v3 main_v7
  let main_v9 : FVec F S12x44 .f32 := Host.absf main_arg4
  let main_cst_2 : FVec F S_ .f32 := constant S_ .f32 0x7F800000#32
  let main_v10 : FVec F S12x44 .f32 := broadcastInDim S12x44 ![] bcast_S_S12x44 main_cst_2
  let main_v11 : IVec S12x44 1 := cmpf .olt main_v9 main_v10
  let main_c_3 : IVec S_ 1 := constantI S_ 1 1#1
  let main_v12 : IVec S_ 1 := (fun x v => Host.reduce IntOp.andi x v reducesTo_S12x44_S_d0_1 h_S_) main_v11 main_c_3
  let main_v13 : IVec S_ 1 := andi main_v8 main_v12
  let main_v14 : FVec F S44 .f32 := Host.absf main_arg5
  let main_cst_4 : FVec F S_ .f32 := constant S_ .f32 0x7F800000#32
  let main_v15 : FVec F S44 .f32 := broadcastInDim S44 ![] bcast_S_S44 main_cst_4
  let main_v16 : IVec S44 1 := cmpf .olt main_v14 main_v15
  fn_part1 (F := F) main_arg6 main_arg7 main_arg8 main_arg9 main_arg10 main_arg11 main_arg12 main_arg13 main_arg14 main_arg15 main_v13 main_v16
-- ==== Kernel.lean ====
abbrev S500000x44 : Shape := ⟨2, ![500000, 44]⟩
abbrev S2000000x12 : Shape := ⟨2, ![2000000, 12]⟩
abbrev S2x2000000 : Shape := ⟨2, ![2, 2000000]⟩
abbrev S500000 : Shape := ⟨1, ![500000]⟩
abbrev S12x44 : Shape := ⟨2, ![12, 44]⟩
abbrev S44 : Shape := ⟨1, ![44]⟩
abbrev S44x64 : Shape := ⟨2, ![44, 64]⟩
abbrev S64 : Shape := ⟨1, ![64]⟩
abbrev S64x64 : Shape := ⟨2, ![64, 64]⟩
abbrev S12x64 : Shape := ⟨2, ![12, 64]⟩
abbrev S64x128 : Shape := ⟨2, ![64, 128]⟩
abbrev S128 : Shape := ⟨1, ![128]⟩
abbrev S128x128 : Shape := ⟨2, ![128, 128]⟩
abbrev S1x2000000 : Shape := ⟨2, ![1, 2000000]⟩
abbrev S2000000 : Shape := ⟨1, ![2000000]⟩
abbrev S1x44 : Shape := ⟨2, ![1, 44]⟩
abbrev S2000000x44 : Shape := ⟨2, ![2000000, 44]⟩
abbrev S10000x12 : Shape := ⟨2, ![10000, 12]⟩
abbrev S10000x44 : Shape := ⟨2, ![10000, 44]⟩
abbrev S_ : Shape := ⟨0, ![]⟩
abbrev S2000000x1 : Shape := ⟨2, ![2000000, 1]⟩
abbrev S1x64 : Shape := ⟨2, ![1, 64]⟩
abbrev S500000x64 : Shape := ⟨2, ![500000, 64]⟩
abbrev S5000x44 : Shape := ⟨2, ![5000, 44]⟩
abbrev S5000x64 : Shape := ⟨2, ![5000, 64]⟩
abbrev S2000000x64 : Shape := ⟨2, ![2000000, 64]⟩
abbrev S10000x64 : Shape := ⟨2, ![10000, 64]⟩
abbrev S1x128 : Shape := ⟨2, ![1, 128]⟩
abbrev S500000x128 : Shape := ⟨2, ![500000, 128]⟩
abbrev S5000x128 : Shape := ⟨2, ![5000, 128]⟩
abbrev S16384x128 : Shape := ⟨2, ![16384, 128]⟩
abbrev S500000x1 : Shape := ⟨2, ![500000, 1]⟩
abbrev S16384x1 : Shape := ⟨2, ![16384, 1]⟩

abbrev nBuf : Space → Nat
  | .hbm => 85
  | .vmem => 32
  | .smem => 0
  | _ => 0

abbrev bufTy : (tb : Table) → Fin (tcTables nBuf tb) → BufTy
  | .hbm, ⟨0, _⟩ => ⟨S500000x44, .f32⟩
  | .hbm, ⟨1, _⟩ => ⟨S2000000x12, .f32⟩
  | .hbm, ⟨2, _⟩ => ⟨S2x2000000, .i32⟩
  | .hbm, ⟨3, _⟩ => ⟨S500000, .i32⟩
  | .hbm, ⟨4, _⟩ => ⟨S12x44, .f32⟩
  | .hbm, ⟨5, _⟩ => ⟨S44, .f32⟩
  | .hbm, ⟨6, _⟩ => ⟨S44x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S12x64, .f32⟩
  | .hbm, ⟨11, _⟩ => ⟨S64, .f32⟩
  | .hbm, ⟨12, _⟩ => ⟨S64x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x2000000, .i32⟩
  | .hbm, ⟨17, _⟩ => ⟨S2000000, .i32⟩
  | .hbm, ⟨18, _⟩ => ⟨S1x2000000, .i32⟩
  | .hbm, ⟨19, _⟩ => ⟨S2000000, .i32⟩
  | .hbm, ⟨20, _⟩ => ⟨S1x44, .f32⟩
  | .hbm, ⟨21, _⟩ => ⟨S2000000x44, .bf16⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x44, .f32⟩
  | .hbm, ⟨31, _⟩ => ⟨S2000000x44, .f32⟩
  | .hbm, ⟨32, _⟩ => ⟨S2000000x44, .f32⟩
  | .hbm, ⟨33, _⟩ => ⟨S_, .f32⟩
  | .hbm, ⟨34, _⟩ => ⟨S2000000x44, .f32⟩
  | .hbm, ⟨35, _⟩ => ⟨S2000000x44, .f32⟩
  | .hbm, ⟨36, _⟩ => ⟨S2000000x44, .bf16⟩
  | .hbm, ⟨37, _⟩ => ⟨S2000000x44, .f32⟩
  | .hbm, ⟨38, _⟩ => ⟨S_, .f32⟩
  | .hbm, ⟨39, _⟩ => ⟨S500000x44, .f32⟩
  | .hbm, ⟨40, _⟩ => ⟨S2000000x1, .i32⟩
  | .hbm, ⟨41, _⟩ => ⟨S500000x44, .f32⟩
  | .hbm, ⟨42, _⟩ => ⟨S1x64, .f32⟩
  | .hbm, ⟨43, _⟩ => ⟨S1x64, .f32⟩
  | .hbm, ⟨44, _⟩ => ⟨S500000x64, .f32⟩
  | .hbm, ⟨45, _⟩ => ⟨S1x64, .f32⟩
  | .hbm, ⟨46, _⟩ => ⟨S2000000x64, .bf16⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S_, .f32⟩
  | .hbm, ⟨59, _⟩ => ⟨S2000000x64, .f32⟩
  | .hbm, ⟨60, _⟩ => ⟨S2000000x64, .f32⟩
  | .hbm, ⟨61, _⟩ => ⟨S2000000x64, .bf16⟩
  | .hbm, ⟨62, _⟩ => ⟨S2000000x64, .f32⟩
  | .hbm, ⟨63, _⟩ => ⟨S_, .f32⟩
  | .hbm, ⟨64, _⟩ => ⟨S500000x64, .f32⟩
  | .hbm, ⟨65, _⟩ => ⟨S2000000x1, .i32⟩
  | .hbm, ⟨66, _⟩ => ⟨S500000x64, .f32⟩
  | .hbm, ⟨67, _⟩ => ⟨S1x128, .f32⟩
  | .hbm, ⟨68, _⟩ => ⟨S1x128, .f32⟩
  | .hbm, ⟨69, _⟩ => ⟨S500000x128, .f32⟩
  | .hbm, ⟨70, _⟩ => ⟨S_, .f32⟩
  | .hbm, ⟨71, _⟩ => ⟨S16384x128, .f32⟩
  | .hbm, ⟨72, _⟩ => ⟨S500000x1, .i32⟩
  | .hbm, ⟨73, _⟩ => ⟨S16384x128, .f32⟩
  | .hbm, ⟨74, _⟩ => ⟨S_, .f32⟩
  | .hbm, ⟨75, _⟩ => ⟨S500000x1, .f32⟩
  | .hbm, ⟨76, _⟩ => ⟨S_, .f32⟩
  | .hbm, ⟨77, _⟩ => ⟨S16384x1, .f32⟩
  | .hbm, ⟨78, _⟩ => ⟨S500000x1, .i32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x128, .f32⟩
  | .hbm, ⟨84, _⟩ => ⟨S16384x128, .f32⟩
  | .local _ .vmem, ⟨0, _⟩ => ⟨S10000x12, .f32⟩
  | .local _ .vmem, ⟨1, _⟩ => ⟨S10000x12, .f32⟩
  | .local _ .vmem, ⟨2, _⟩ => ⟨S12x44, .f32⟩
  | .local _ .vmem, ⟨3, _⟩ => ⟨S1x44, .f32⟩
  | .local _ .vmem, ⟨4, _⟩ => ⟨S10000x44, .bf16⟩
  | .local _ .vmem, ⟨5, _⟩ => ⟨S10000x44, .bf16⟩
  | .local _ .vmem, ⟨6, _⟩ => ⟨S5000x44, .f32⟩
  | .local _ .vmem, ⟨7, _⟩ => ⟨S5000x44, .f32⟩
  | .local _ .vmem, ⟨8, _⟩ => ⟨S5000x44, .f32⟩
  | .local _ .vmem, ⟨9, _⟩ => ⟨S5000x44, .f32⟩
  | .local _ .vmem, ⟨10, _⟩ => ⟨S44x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S10000x12, .f32⟩
  | .local _ .vmem, ⟨17, _⟩ => ⟨S10000x12, .f32⟩
  | .local _ .vmem, ⟨18, _⟩ => ⟨S12x64, .f32⟩
  | .local _ .vmem, ⟨19, _⟩ => ⟨S1x64, .f32⟩
  | .local _ .vmem, ⟨20, _⟩ => ⟨S10000x64, .bf16⟩
  | .local _ .vmem, ⟨21, _⟩ => ⟨S10000x64, .bf16⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S500000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_1 : Ref sig .tc := ⟨.hbm, 47, rfl⟩
abbrev main_v26 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_cst : Ref sig .tc := ⟨.hbm, 58, rfl⟩
abbrev main_call1_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x44 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x44 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x44 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x44 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x44 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S44x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x12 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S44_S1x44 : S44.ShapeCasts S1x44
  inb_S10000x12_S10000x12_0_0 : ∀ a, (![0, 0] : Fin 2 → Nat) a + S10000x12.size a ≤ S10000x12.size a
  h_S10000x12 : 0 < S10000x12.numel
  bitsLt_bf16_f32 : FTy.bits .bf16 < FTy.bits .f32
  inb_S12x44_S12x44_0_0 : ∀ a, (![0, 0] : Fin 2 → Nat) a + S12x44.size a ≤ S12x44.size a
  h_S12x44 : 0 < S12x44.numel
  inb_S1x44_S1x44_0_0 : ∀ a, (![0, 0] : Fin 2 → Nat) a + S1x44.size a ≤ S1x44.size a
  h_S1x44 : 0 < S1x44.numel
  shapeCasts_S1x44_S1x44 : S1x44.ShapeCasts S1x44
  broadcasts_S1x44_S10000x44 : S1x44.Broadcasts S10000x44
  inb_S10000x44_S10000x44_0_0 : ∀ a, (![0, 0] : Fin 2 → Nat) a + S10000x44.size a ≤ S10000x44.size a
  h_S10000x44 : 0 < S10000x44.numel
  packedbf16_S10000x44_S10000x44_0_0 : (Rect.unit (s := S10000x44) ![0, 0] S10000x44.size inb_S10000x44_S10000x44_0_0).PackedRows (EltTy.packing .bf16)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x44 : S_.BroadcastsInDim S2000000x44 (![] : Fin 0 → Fin S2000000x44.rank)
  bcast_S_S500000x44 : S_.BroadcastsInDim S500000x44 (![] : Fin 0 → Fin S500000x44.rank)
  shapeCasts_S64_S1x64 : S64.ShapeCasts S1x64
  inb_S5000x44_S5000x44_0_0 : ∀ a, (![0, 0] : Fin 2 → Nat) a + S5000x44.size a ≤ S5000x44.size a
  h_S5000x44 : 0 < S5000x44.numel
  shapeCasts_S5000x44_S5000x44 : S5000x44.ShapeCasts S5000x44
  inb_S44x64_S44x64_0_0 : ∀ a, (![0, 0] : Fin 2 → Nat) a + S44x64.size a ≤ S44x64.size a
  h_S44x64 : 0 < S44x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S12x64_S12x64_0_0 : ∀ a, (![0, 0] : Fin 2 → Nat) a + S12x64.size a ≤ S12x64.size a
  h_S12x64 : 0 < S12x64.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S2000000x64 : S_.BroadcastsInDim S2000000x64 (![] : Fin 0 → Fin S2000000x64.rank)
  bcast_S_S500000x64 : S_.BroadcastsInDim S500000x64 (![] : Fin 0 → Fin S500000x64.rank)
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S16384x128 : S_.BroadcastsInDim S16384x128 (![] : Fin 0 → Fin S16384x128.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S10000x12_S12x44_S10000x44_1_0_0_1_n_n_wf : DotDims.WF S10000x12 S12x44 S10000x44 [1] [0] [0] [1] [] []
  gather_S500000x44_S2000000x1_S2000000x44_1_0_n_n_0_1_144_wf : GatherDims.WF S500000x44 S2000000x1 S2000000x44 [1] [0] [] [0] [] 1 ![1, 44]
  scatter_S500000x44_S2000000x1_S2000000x44_1_0_0_1_wf : ScatterDims.WF S500000x44 S2000000x1 S2000000x44 [1] [0] [0] 1
  dot_S5000x44_S44x64_S5000x64_1_0_0_1_n_n_wf : DotDims.WF S5000x44 S44x64 S5000x64 [1] [0] [0] [1] [] []
  dot_S5000x64_S64x64_S5000x64_1_0_0_1_n_n_wf : DotDims.WF S5000x64 S64x64 S5000x64 [1] [0] [0] [1] [] []
  dot_S10000x12_S12x64_S10000x64_1_0_0_1_n_n_wf : DotDims.WF S10000x12 S12x64 S10000x64 [1] [0] [0] [1] [] []
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  scatter_S16384x128_S500000x1_S500000x128_1_0_0_1_wf : ScatterDims.WF S16384x128 S500000x1 S500000x128 [1] [0] [0] 1
  scatter_S16384x1_S500000x1_S500000x1_1_0_0_1_wf : ScatterDims.WF S16384x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x12.size a ≤ S2000000x12.size a
  hwx0_0 : ∀ i : grid0.Coords, EltTy.bits .f32 = 32 ∨ (Rect.block (s := S2000000x12) S10000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x44.size a ≤ S12x44.size a
  hwx0_1 : ∀ i : grid0.Coords, EltTy.bits .f32 = 32 ∨ (Rect.block (s := S12x44) S12x44.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x44.size a ≤ S1x44.size a
  hwx0_2 : ∀ i : grid0.Coords, EltTy.bits .f32 = 32 ∨ (Rect.block (s := S1x44) S1x44.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x44.size a ≤ S2000000x44.size a
  hwx0_3 : ∀ i : grid0.Coords, EltTy.bits .bf16 = 32 ∨ (Rect.block (s := S2000000x44) S10000x44.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x44.size a ≤ S500000x44.size a
  hwx1_0 : ∀ i : grid1.Coords, EltTy.bits .f32 = 32 ∨ (Rect.block (s := S500000x44) S5000x44.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x44.size a ≤ S500000x44.size a
  hwx1_1 : ∀ i : grid1.Coords, EltTy.bits .f32 = 32 ∨ (Rect.block (s := S500000x44) S5000x44.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S44x64.size a ≤ S44x64.size a
  hwx1_2 : ∀ i : grid1.Coords, EltTy.bits .f32 = 32 ∨ (Rect.block (s := S44x64) S44x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S500000x64.size a
  hwx1_6 : ∀ i : grid1.Coords, EltTy.bits .f32 = 32 ∨ (Rect.block (s := S500000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x12.size a ≤ S2000000x12.size a
  hwx2_0 : ∀ i : grid2.Coords, EltTy.bits .f32 = 32 ∨ (Rect.block (s := S2000000x12) S10000x12.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12x64.size a ≤ S12x64.size a
  hwx2_1 : ∀ i : grid2.Coords, EltTy.bits .f32 = 32 ∨ (Rect.block (s := S12x64) S12x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S2000000x64.size a
  hwx2_3 : ∀ i : grid2.Coords, EltTy.bits .bf16 = 32 ∨ (Rect.block (s := S2000000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S500000x64.size a
  hwx3_0 : ∀ i : grid3.Coords, EltTy.bits .f32 = 32 ∨ (Rect.block (s := S500000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S500000x64.size a
  hwx3_1 : ∀ i : grid3.Coords, EltTy.bits .f32 = 32 ∨ (Rect.block (s := S500000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S500000x128.size a
  hwx3_6 : ∀ i : grid3.Coords, EltTy.bits .f32 = 32 ∨ (Rect.block (s := S500000x128) S5000x128.size (cc3_transform_6 i) (hinb3_6 i)).WholeWords (EltTy.packing .f32)

variable [Facts₀]

def dot_S10000x12_S12x44_S10000x44_1_0_0_1_n_n : DotDims S10000x12 S12x44 S10000x44 where
  lhsContracting := [1]
  rhsContracting := [0]
  lhsNonContracting := [0]
  rhsNonContracting := [1]
  lhsBatch := []
  rhsBatch := []
  wf := dot_S10000x12_S12x44_S10000x44_1_0_0_1_n_n_wf
def gather_S500000x44_S2000000x1_S2000000x44_1_0_n_n_0_1_144 : GatherDims S500000x44 S2000000x1 S2000000x44 where
  offsetDims := [1]
  collapsedSliceDims := [0]
  operandBatchingDims := []
  startIndicesBatchingDims := []
  startIndexMap := [0]
  indexVectorDim := 1
  sliceSizes := ![1, 44]
  wf := gather_S500000x44_S2000000x1_S2000000x44_1_0_n_n_0_1_144_wf
def scatter_S500000x44_S2000000x1_S2000000x44_1_0_0_1 : ScatterDims S500000x44 S2000000x1 S2000000x44 where
  updateWindowDims := [1]
  insertedWindowDims := [0]
  scatterDimsToOperandDims := [0]
  indexVectorDim := 1
  wf := scatter_S500000x44_S2000000x1_S2000000x44_1_0_0_1_wf
def dot_S5000x44_S44x64_S5000x64_1_0_0_1_n_n : DotDims S5000x44 S44x64 S5000x64 where
  lhsContracting := [1]
  rhsContracting := [0]
  lhsNonContracting := [0]
  rhsNonContracting := [1]
  lhsBatch := []
  rhsBatch := []
  wf := dot_S5000x44_S44x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x12_S12x64_S10000x64_1_0_0_1_n_n : DotDims S10000x12 S12x64 S10000x64 where
  lhsContracting := [1]
  rhsContracting := [0]
  lhsNonContracting := [0]
  rhsNonContracting := [1]
  lhsBatch := []
  rhsBatch := []
  wf := dot_S10000x12_S12x64_S10000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S16384x128_S500000x1_S500000x128_1_0_0_1 : ScatterDims S16384x128 S500000x1 S500000x128 where
  updateWindowDims := [1]
  insertedWindowDims := [0]
  scatterDimsToOperandDims := [0]
  indexVectorDim := 1
  wf := scatter_S16384x128_S500000x1_S500000x128_1_0_0_1_wf
def scatter_S16384x1_S500000x1_S500000x1_1_0_0_1 : ScatterDims S16384x1 S500000x1 S500000x1 where
  updateWindowDims := [1]
  insertedWindowDims := [0]
  scatterDimsToOperandDims := [0]
  indexVectorDim := 1
  wf := scatter_S16384x1_S500000x1_S500000x1_1_0_0_1_wf

abbrev win0_0 : Pipeline.Window sig grid0 :=
  Pipeline.Window.ofSpec (Memref.whole main_arg1) S10000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S12x44.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x44.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x44.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x44.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x44.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S44x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S10000x12.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S12x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x44 : Shape := ⟨2, ![500000, 44]⟩
abbrev S2000000x12 : Shape := ⟨2, ![2000000, 12]⟩
abbrev S2x2000000 : Shape := ⟨2, ![2, 2000000]⟩
abbrev S500000 : Shape := ⟨1, ![500000]⟩
abbrev S12x44 : Shape := ⟨2, ![12, 44]⟩
abbrev S44 : Shape := ⟨1, ![44]⟩
abbrev S44x64 : Shape := ⟨2, ![44, 64]⟩
abbrev S64 : Shape := ⟨1, ![64]⟩
abbrev S64x64 : Shape := ⟨2, ![64, 64]⟩
abbrev S12x64 : Shape := ⟨2, ![12, 64]⟩
abbrev S64x128 : Shape := ⟨2, ![64, 128]⟩
abbrev S128 : Shape := ⟨1, ![128]⟩
abbrev S128x128 : Shape := ⟨2, ![128, 128]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x44 : Shape := ⟨2, ![2000000, 44]⟩
abbrev S1x44 : Shape := ⟨2, ![1, 44]⟩
abbrev S500000x64 : Shape := ⟨2, ![500000, 64]⟩
abbrev S1x64 : Shape := ⟨2, ![1, 64]⟩
abbrev S2000000x64 : Shape := ⟨2, ![2000000, 64]⟩
abbrev S500000x128 : Shape := ⟨2, ![500000, 128]⟩
abbrev S1x128 : Shape := ⟨2, ![1, 128]⟩
abbrev S16384x128 : Shape := ⟨2, ![16384, 128]⟩
abbrev S500000x1 : Shape := ⟨2, ![500000, 1]⟩
abbrev S16384x1 : Shape := ⟨2, ![16384, 1]⟩

abbrev nBuf : Space → Nat
  | .hbm => 104
  | .vmem => 0
  | .smem => 0
  | _ => 0

abbrev bufTy : (tb : Table) → Fin (tcTables nBuf tb) → BufTy
  | .hbm, ⟨0, _⟩ => ⟨S500000x44, .f32⟩
  | .hbm, ⟨1, _⟩ => ⟨S2000000x12, .f32⟩
  | .hbm, ⟨2, _⟩ => ⟨S2x2000000, .i32⟩
  | .hbm, ⟨3, _⟩ => ⟨S500000, .i32⟩
  | .hbm, ⟨4, _⟩ => ⟨S12x44, .f32⟩
  | .hbm, ⟨5, _⟩ => ⟨S44, .f32⟩
  | .hbm, ⟨6, _⟩ => ⟨S44x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S12x64, .f32⟩
  | .hbm, ⟨11, _⟩ => ⟨S64, .f32⟩
  | .hbm, ⟨12, _⟩ => ⟨S64x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x2000000, .i32⟩
  | .hbm, ⟨17, _⟩ => ⟨S2000000, .i32⟩
  | .hbm, ⟨18, _⟩ => ⟨S1x2000000, .i32⟩
  | .hbm, ⟨19, _⟩ => ⟨S2000000, .i32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x44, .f32⟩
  | .hbm, ⟨29, _⟩ => ⟨S2000000x44, .f32⟩
  | .hbm, ⟨30, _⟩ => ⟨S2000000x44, .f32⟩
  | .hbm, ⟨31, _⟩ => ⟨S1x44, .f32⟩
  | .hbm, ⟨32, _⟩ => ⟨S2000000x44, .f32⟩
  | .hbm, ⟨33, _⟩ => ⟨S2000000x44, .f32⟩
  | .hbm, ⟨34, _⟩ => ⟨S_, .f32⟩
  | .hbm, ⟨35, _⟩ => ⟨S2000000x44, .f32⟩
  | .hbm, ⟨36, _⟩ => ⟨S2000000x44, .f32⟩
  | .hbm, ⟨37, _⟩ => ⟨S_, .f32⟩
  | .hbm, ⟨38, _⟩ => ⟨S500000x44, .f32⟩
  | .hbm, ⟨39, _⟩ => ⟨S2000000x1, .i32⟩
  | .hbm, ⟨40, _⟩ => ⟨S500000x44, .f32⟩
  | .hbm, ⟨41, _⟩ => ⟨S500000x44, .f32⟩
  | .hbm, ⟨42, _⟩ => ⟨S500000x64, .f32⟩
  | .hbm, ⟨43, _⟩ => ⟨S1x64, .f32⟩
  | .hbm, ⟨44, _⟩ => ⟨S500000x64, .f32⟩
  | .hbm, ⟨45, _⟩ => ⟨S500000x64, .f32⟩
  | .hbm, ⟨46, _⟩ => ⟨S_, .f32⟩
  | .hbm, ⟨47, _⟩ => ⟨S500000x64, .f32⟩
  | .hbm, ⟨48, _⟩ => ⟨S500000x64, .f32⟩
  | .hbm, ⟨49, _⟩ => ⟨S500000x64, .f32⟩
  | .hbm, ⟨50, _⟩ => ⟨S1x64, .f32⟩
  | .hbm, ⟨51, _⟩ => ⟨S500000x64, .f32⟩
  | .hbm, ⟨52, _⟩ => ⟨S500000x64, .f32⟩
  | .hbm, ⟨53, _⟩ => ⟨S_, .f32⟩
  | .hbm, ⟨54, _⟩ => ⟨S500000x64, .f32⟩
  | .hbm, ⟨55, _⟩ => ⟨S500000x64, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x64, .f32⟩
  | .hbm, ⟨65, _⟩ => ⟨S2000000x64, .f32⟩
  | .hbm, ⟨66, _⟩ => ⟨S2000000x64, .f32⟩
  | .hbm, ⟨67, _⟩ => ⟨S1x64, .f32⟩
  | .hbm, ⟨68, _⟩ => ⟨S2000000x64, .f32⟩
  | .hbm, ⟨69, _⟩ => ⟨S2000000x64, .f32⟩
  | .hbm, ⟨70, _⟩ => ⟨S_, .f32⟩
  | .hbm, ⟨71, _⟩ => ⟨S2000000x64, .f32⟩
  | .hbm, ⟨72, _⟩ => ⟨S2000000x64, .f32⟩
  | .hbm, ⟨73, _⟩ => ⟨S_, .f32⟩
  | .hbm, ⟨74, _⟩ => ⟨S500000x64, .f32⟩
  | .hbm, ⟨75, _⟩ => ⟨S2000000x1, .i32⟩
  | .hbm, ⟨76, _⟩ => ⟨S500000x64, .f32⟩
  | .hbm, ⟨77, _⟩ => ⟨S500000x64, .f32⟩
  | .hbm, ⟨78, _⟩ => ⟨S500000x128, .f32⟩
  | .hbm, ⟨79, _⟩ => ⟨S1x128, .f32⟩
  | .hbm, ⟨80, _⟩ => ⟨S500000x128, .f32⟩
  | .hbm, ⟨81, _⟩ => ⟨S500000x128, .f32⟩
  | .hbm, ⟨82, _⟩ => ⟨S_, .f32⟩
  | .hbm, ⟨83, _⟩ => ⟨S500000x128, .f32⟩
  | .hbm, ⟨84, _⟩ => ⟨S500000x128, .f32⟩
  | .hbm, ⟨85, _⟩ => ⟨S500000x128, .f32⟩
  | .hbm, ⟨86, _⟩ => ⟨S1x128, .f32⟩
  | .hbm, ⟨87, _⟩ => ⟨S500000x128, .f32⟩
  | .hbm, ⟨88, _⟩ => ⟨S500000x128, .f32⟩
  | .hbm, ⟨89, _⟩ => ⟨S_, .f32⟩
  | .hbm, ⟨90, _⟩ => ⟨S16384x128, .f32⟩
  | .hbm, ⟨91, _⟩ => ⟨S500000x1, .i32⟩
  | .hbm, ⟨92, _⟩ => ⟨S16384x128, .f32⟩
  | .hbm, ⟨93, _⟩ => ⟨S_, .f32⟩
  | .hbm, ⟨94, _⟩ => ⟨S500000x1, .f32⟩
  | .hbm, ⟨95, _⟩ => ⟨S_, .f32⟩
  | .hbm, ⟨96, _⟩ => ⟨S16384x1, .f32⟩
  | .hbm, ⟨97, _⟩ => ⟨S500000x1, .i32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x128, .f32⟩
  | .hbm, ⟨103, _⟩ => ⟨S16384x128, .f32⟩
  | _, _ => ⟨S500000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_cst : Ref sig .tc := ⟨.hbm, 46, rfl⟩
abbrev main_call1_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_c_1 : Ref sig .tc := ⟨.hbm, 56, rfl⟩
abbrev main_v31 : Ref sig .tc := ⟨.hbm, 57, rfl⟩
abbrev main_v32 : Ref sig .tc := ⟨.hbm, 58, rfl⟩
abbrev main_c_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_cst : Ref sig .tc := ⟨.hbm, 70, rfl⟩
abbrev main_call3_v0 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call4_cst : Ref sig .tc := ⟨.hbm, 82, rfl⟩
abbrev main_call4_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_4 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_5 : Ref sig .tc := ⟨.hbm, 93, rfl⟩
abbrev main_v60 : Ref sig .tc := ⟨.hbm, 94, rfl⟩
abbrev main_cst_6 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S44_S1x44_1 : S44.BroadcastsInDim S1x44 (![1] : Fin 1 → Fin S1x44.rank)
  bcast_S1x44_S2000000x44_0_1 : S1x44.BroadcastsInDim S2000000x44 (![0, 1] : Fin 2 → Fin S2000000x44.rank)
  bcast_S_S2000000x44 : S_.BroadcastsInDim S2000000x44 (![] : Fin 0 → Fin S2000000x44.rank)
  bcast_S_S500000x44 : S_.BroadcastsInDim S500000x44 (![] : Fin 0 → Fin S500000x44.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S16384x128 : S_.BroadcastsInDim S16384x128 (![] : Fin 0 → Fin S16384x128.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  gather_S500000x44_S2000000x1_S2000000x44_1_0_n_n_0_1_144_wf : GatherDims.WF S500000x44 S2000000x1 S2000000x44 [1] [0] [] [0] [] 1 ![1, 44]
  dot_S2000000x12_S12x44_S2000000x44_1_0_0_1_n_n_wf : DotDims.WF S2000000x12 S12x44 S2000000x44 [1] [0] [0] [1] [] []
  scatter_S500000x44_S2000000x1_S2000000x44_1_0_0_1_wf : ScatterDims.WF S500000x44 S2000000x1 S2000000x44 [1] [0] [0] 1
  dot_S500000x44_S44x64_S500000x64_1_0_0_1_n_n_wf : DotDims.WF S500000x44 S44x64 S500000x64 [1] [0] [0] [1] [] []
  dot_S500000x64_S64x64_S500000x64_1_0_0_1_n_n_wf : DotDims.WF S500000x64 S64x64 S500000x64 [1] [0] [0] [1] [] []
  gather_S500000x64_S2000000x1_S2000000x64_1_0_n_n_0_1_164_wf : GatherDims.WF S500000x64 S2000000x1 S2000000x64 [1] [0] [] [0] [] 1 ![1, 64]
  dot_S2000000x12_S12x64_S2000000x64_1_0_0_1_n_n_wf : DotDims.WF S2000000x12 S12x64 S2000000x64 [1] [0] [0] [1] [] []
  scatter_S500000x64_S2000000x1_S2000000x64_1_0_0_1_wf : ScatterDims.WF S500000x64 S2000000x1 S2000000x64 [1] [0] [0] 1
  dot_S500000x64_S64x128_S500000x128_1_0_0_1_n_n_wf : DotDims.WF S500000x64 S64x128 S500000x128 [1] [0] [0] [1] [] []
  dot_S500000x128_S128x128_S500000x128_1_0_0_1_n_n_wf : DotDims.WF S500000x128 S128x128 S500000x128 [1] [0] [0] [1] [] []
  scatter_S16384x128_S500000x1_S500000x128_1_0_0_1_wf : ScatterDims.WF S16384x128 S500000x1 S500000x128 [1] [0] [0] 1
  scatter_S16384x1_S500000x1_S500000x1_1_0_0_1_wf : ScatterDims.WF S16384x1 S500000x1 S500000x1 [1] [0] [0] 1

variable [Facts₀]

def gather_S500000x44_S2000000x1_S2000000x44_1_0_n_n_0_1_144 : GatherDims S500000x44 S2000000x1 S2000000x44 where
  offsetDims := [1]
  collapsedSliceDims := [0]
  operandBatchingDims := []
  startIndicesBatchingDims := []
  startIndexMap := [0]
  indexVectorDim := 1
  sliceSizes := ![1, 44]
  wf := gather_S500000x44_S2000000x1_S2000000x44_1_0_n_n_0_1_144_wf
def dot_S2000000x12_S12x44_S2000000x44_1_0_0_1_n_n : DotDims S2000000x12 S12x44 S2000000x44 where
  lhsContracting := [1]
  rhsContracting := [0]
  lhsNonContracting := [0]
  rhsNonContracting := [1]
  lhsBatch := []
  rhsBatch := []
  wf := dot_S2000000x12_S12x44_S2000000x44_1_0_0_1_n_n_wf
def scatter_S500000x44_S2000000x1_S2000000x44_1_0_0_1 : ScatterDims S500000x44 S2000000x1 S2000000x44 where
  updateWindowDims := [1]
  insertedWindowDims := [0]
  scatterDimsToOperandDims := [0]
  indexVectorDim := 1
  wf := scatter_S500000x44_S2000000x1_S2000000x44_1_0_0_1_wf
def dot_S500000x44_S44x64_S500000x64_1_0_0_1_n_n : DotDims S500000x44 S44x64 S500000x64 where
  lhsContracting := [1]
  rhsContracting := [0]
  lhsNonContracting := [0]
  rhsNonContracting := [1]
  lhsBatch := []
  rhsBatch := []
  wf := dot_S500000x44_S44x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def dot_S2000000x12_S12x64_S2000000x64_1_0_0_1_n_n : DotDims S2000000x12 S12x64 S2000000x64 where
  lhsContracting := [1]
  rhsContracting := [0]
  lhsNonContracting := [0]
  rhsNonContracting := [1]
  lhsBatch := []
  rhsBatch := []
  wf := dot_S2000000x12_S12x64_S2000000x64_1_0_0_1_n_n_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S16384x128_S500000x1_S500000x128_1_0_0_1 : ScatterDims S16384x128 S500000x1 S500000x128 where
  updateWindowDims := [1]
  insertedWindowDims := [0]
  scatterDimsToOperandDims := [0]
  indexVectorDim := 1
  wf := scatter_S16384x128_S500000x1_S500000x128_1_0_0_1_wf
def scatter_S16384x1_S500000x1_S500000x1_1_0_0_1 : ScatterDims S16384x1 S500000x1 S500000x1 where
  updateWindowDims := [1]
  insertedWindowDims := [0]
  scatterDimsToOperandDims := [0]
  indexVectorDim := 1
  wf := scatter_S16384x1_S500000x1_S500000x1_1_0_0_1_wf

class Facts : Prop extends Facts₀ where

variable [Facts]
-- ==== Proof.KRun.lean ====
/-
  The kernel program's run with its result named. The program is thirteen stretches in a row: host operations, then a
  pipelined region, and so on. Each stretch is run from the buffer contents the one before it left, so the contents at
  the return are a fold over the stretches from the launch memory (`Gen.W13`). Every weakly fair execution therefore
  ends with the result buffer at that fold's value and with the sixteen argument arrays as launched.
-/
import proofs.«127828_j66297115181623_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution terminates without a fault; the result buffer
    ends at the last boundary's contents, and the arguments end as they were launched. -/
theorem run_result : θ_run defs (onTc (τ := τ) (main (F := F))) ⟨m, fun _ => 0, ρ⟩ (fun r => ∀ c : Dev nD,
      r.2.mem ((c.tc : Thread nD τ).loc main_v54) = W13 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v54 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.RunValue

end
-- ==== Proof.Spec.lean ====
/-
  The mathematics both programs compute, stated once over plain index functions on the extended reals.

  A graph layer sends every edge through an affine map of its attributes (a row of the attribute matrix times a
  weight matrix, plus a bias row), adds the source node's features, clips below at zero and sums the results at the
  target node; every node then goes through a two-layer perceptron: an affine map, a clip at zero, a second affine
  map. The two building blocks are `affine` (each row of a matrix through a weight matrix and a bias row) and the
  clip `relu`; the perceptron is their composition `mlp`.
-/
import Idealize.ShloMosaic.PureOps.Ideal
import Idealize.ShloMosaic.Lib.ValueIdx

noncomputable section

namespace Cert.Gine

open Idealize.ShloMosaic Idealize.ShloMosaic.ValueIdx

/-- Row `i 0` of the `n × k` matrix `a` times column `i 1` of the `k × d` matrix `w`, plus entry `i 1` of the bias row `b`. -/
def affine (n k d : Nat) (a : (⟨2, ![n, k]⟩ : Shape).Idx → EReal) (w : (⟨2, ![k, d]⟩ : Shape).Idx → EReal)
    (b : (⟨2, ![1, d]⟩ : Shape).Idx → EReal) : (⟨2, ![n, d]⟩ : Shape).Idx → EReal :=
  fun i => (∑ κ : Fin k, a (ix2 (i 0) κ) * w (ix2 κ (i 1))) + b (ix2 (0 : Fin 1) (i 1))

/-- The clip below at zero, entry by entry. -/
def relu {s : Shape} (a : s.Idx → EReal) : s.Idx → EReal := fun i => max (a i) 0

/-- The entrywise sum of two arrays. -/
def plus {s : Shape} (a b : s.Idx → EReal) : s.Idx → EReal := fun i => a i + b i

/-- The node update: the rows of `x + agg` through an affine map into `h` hidden features, clipped at zero, through a
    second affine map into `o` features. -/
def mlp (n d h o : Nat) (x agg : (⟨2, ![n, d]⟩ : Shape).Idx → EReal) (wa : (⟨2, ![d, h]⟩ : Shape).Idx → EReal)
    (ba : (⟨2, ![1, h]⟩ : Shape).Idx → EReal) (wb : (⟨2, ![h, o]⟩ : Shape).Idx → EReal)
    (bb : (⟨2, ![1, o]⟩ : Shape).Idx → EReal) : (⟨2, ![n, o]⟩ : Shape).Idx → EReal :=
  affine n h o (relu (affine n d h (plus x agg) wa ba)) wb bb

/-- A bias vector as the one-row matrix both programs add to every row. -/
def row {d : Nat} (b : (⟨1, ![d]⟩ : Shape).Idx → EReal) : (⟨2, ![1, d]⟩ : Shape).Idx → EReal := fun j => b (ix1 (j 1))

theorem affine_apply (n k d : Nat) (a : (⟨2, ![n, k]⟩ : Shape).Idx → EReal) (w : (⟨2, ![k, d]⟩ : Shape).Idx → EReal)
    (b : (⟨2, ![1, d]⟩ : Shape).Idx → EReal) (p : Fin n) (q : Fin d) :
    affine n k d a w b (ix2 p q) = (∑ κ : Fin k, a (ix2 p κ) * w (ix2 κ q)) + b (ix2 (0 : Fin 1) q) := rfl

theorem mlp_apply (n d h o : Nat) (x agg : (⟨2, ![n, d]⟩ : Shape).Idx → EReal) (wa : (⟨2, ![d, h]⟩ : Shape).Idx → EReal)
    (ba : (⟨2, ![1, h]⟩ : Shape).Idx → EReal) (wb : (⟨2, ![h, o]⟩ : Shape).Idx → EReal)
    (bb : (⟨2, ![1, o]⟩ : Shape).Idx → EReal) (p : Fin n) (q : Fin o) :
    mlp n d h o x agg wa ba wb bb (ix2 p q)
      = (∑ κ : Fin h, max ((∑ l : Fin d, (x (ix2 p l) + agg (ix2 p l)) * wa (ix2 l κ)) + ba (ix2 (0 : Fin 1) κ)) 0 * wb (ix2 κ q))
        + bb (ix2 (0 : Fin 1) q) := rfl

end Cert.Gine

end
-- ==== Proof.KSpec.lean ====
/-
  The kernel program's result as one function of its sixteen argument arrays, at the ideal values, spelt with the
  program's own host operations and the shared specification of its four regions.

  An edge list gives each edge a source and a target node (negative source numbers count from the end). Layer one sends
  every edge's attributes through an affine map, adds the source node's features, clips at zero and sums the messages
  at the target nodes (`agg1`); each node's features plus its sum then go through a two-layer perceptron and a clip
  (`h1`). Layer two does the same from `h1` with its own weights and no final clip (`h2`). The result is the mean
  of `h2` over the nodes of each graph: the per-graph sums divided by the per-graph node counts, a count below one
  read as one (`out`).
-/
import proofs.«127828_j66297115181623_2_alg».proof.Proof.Gen.KernelIdeal
import proofs.«127828_j66297115181623_2_alg».proof.Proof.Spec

noncomputable section

namespace Cert.KernelIdeal.Whole

open Cert.KernelIdeal Cert.KernelIdeal.Gen Idealize.ShloMosaic Idealize.ShloMosaic.ValueIdx

variable (x0 : (⟨S500000x44, .f32⟩ : BufTy).Contents (Elt Ideal)) (x1 : (⟨S2000000x12, .f32⟩ : BufTy).Contents (Elt Ideal))
  (x2 : (⟨S2x2000000, .i32⟩ : BufTy).Contents (Elt Ideal)) (x3 : (⟨S500000, .i32⟩ : BufTy).Contents (Elt Ideal))
  (x4 : (⟨S12x44, .f32⟩ : BufTy).Contents (Elt Ideal)) (x5 : (⟨S44, .f32⟩ : BufTy).Contents (Elt Ideal))
  (x6 : (⟨S44x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S12x64, .f32⟩ : BufTy).Contents (Elt Ideal)) (x11 : (⟨S64, .f32⟩ : BufTy).Contents (Elt Ideal))
  (x12 : (⟨S64x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-- Row 0 of the edge list: each edge's source node, as written. -/
def srcRaw : (⟨S2000000, .i32⟩ : BufTy).Contents (Elt Ideal) :=
  shapeCast _ (extractStridedSlice S1x2000000 ![0, 0] x2 slices_S2x2000000_S1x2000000_0_0) shapeCasts_S1x2000000_S2000000

/-- Row 1 of the edge list: each edge's target node. -/
def dstRaw : (⟨S2000000, .i32⟩ : BufTy).Contents (Elt Ideal) :=
  shapeCast _ (extractStridedSlice S1x2000000 ![1, 0] x2 slices_S2x2000000_S1x2000000_1_0) shapeCasts_S1x2000000_S2000000

/-- The source nodes as a column of gather indices, a negative number counted from the end of the 500000 nodes. -/
def srcIdx : (⟨S2000000x1, .i32⟩ : BufTy).Contents (Elt Ideal) :=
  broadcastInDim S2000000x1 ![0] bcast_S2000000_S2000000x1_0
    (select (cmpi .slt (srcRaw x2) (broadcastInDim S2000000 ![] bcast_S_S2000000 (constantI S_ 32 0#32)))
      (addi (srcRaw x2) (broadcastInDim S2000000 ![] bcast_S_S2000000 (constantI S_ 32 500000#32))) (srcRaw x2))

/-- The target nodes as a column of scatter indices. -/
def dstIdx : (⟨S2000000x1, .i32⟩ : BufTy).Contents (Elt Ideal) :=
  broadcastInDim S2000000x1 ![0] bcast_S2000000_S2000000x1_0 (dstRaw x2)

/-- Layer one's edge affine map. -/
def lin1 : (⟨S2000000x44, .bf16⟩ : BufTy).Contents (Elt Ideal) :=
  Cert.Gine.affine 2000000 12 44 x1 x4 (shapeCast S1x44 x5 shapeCasts_S44_S1x44)

/-- Layer one's messages summed at the target nodes. -/
def agg1 : (⟨S500000x44, .f32⟩ : BufTy).Contents (Elt Ideal) :=
  Host.scatterAdd (F := Ideal) scatter_S500000x44_S2000000x1_S2000000x44_1_0_0_1
    (broadcastInDim S500000x44 ![] bcast_S_S500000x44 (constant (F := Ideal) S_ .f32 0x00000000#32)) (dstIdx x2)
    (extf .f32 (truncf .bf16 (maximumf (addf (Host.gather gather_S500000x44_S2000000x1_S2000000x44_1_0_n_n_0_1_144 x0 (srcIdx x2))
        (extf .f32 (lin1 x1 x4 x5) bitsLt_bf16_f32))
      (broadcastInDim S2000000x44 ![] bcast_S_S2000000x44 (constant (F := Ideal) S_ .f32 0x00000000#32))) bitsLt_bf16_f32) bitsLt_bf16_f32)

/-- The node features after layer one. -/
def h1 : (⟨S500000x64, .f32⟩ : BufTy).Contents (Elt Ideal) :=
  Cert.Gine.relu (Cert.Gine.mlp 500000 44 64 64 x0 (agg1 x0 x1 x2 x4 x5) x6 (shapeCast S1x64 x7 shapeCasts_S64_S1x64) x8
    (shapeCast S1x64 x9 shapeCasts_S64_S1x64))

/-- Layer two's edge affine map. -/
def lin2 : (⟨S2000000x64, .bf16⟩ : BufTy).Contents (Elt Ideal) :=
  Cert.Gine.affine 2000000 12 64 x1 x10 (shapeCast S1x64 x11 shapeCasts_S64_S1x64)

/-- Layer two's messages summed at the target nodes. -/
def agg2 : (⟨S500000x64, .f32⟩ : BufTy).Contents (Elt Ideal) :=
  Host.scatterAdd (F := Ideal) scatter_S500000x64_S2000000x1_S2000000x64_1_0_0_1
    (broadcastInDim S500000x64 ![] bcast_S_S500000x64 (constant (F := Ideal) S_ .f32 0x00000000#32)) (dstIdx x2)
    (extf .f32 (truncf .bf16 (maximumf (addf (Host.gather gather_S500000x64_S2000000x1_S2000000x64_1_0_n_n_0_1_164 (h1 x0 x1 x2 x4 x5 x6 x7 x8 x9) (srcIdx x2))
        (extf .f32 (lin2 x1 x10 x11) bitsLt_bf16_f32))
      (broadcastInDim S2000000x64 ![] bcast_S_S2000000x64 (constant (F := Ideal) S_ .f32 0x00000000#32))) bitsLt_bf16_f32) bitsLt_bf16_f32)

/-- The node features after layer two. -/
def h2 : (⟨S500000x128, .f32⟩ : BufTy).Contents (Elt Ideal) :=
  Cert.Gine.mlp 500000 64 128 128 (h1 x0 x1 x2 x4 x5 x6 x7 x8 x9) (agg2 x0 x1 x2 x4 x5 x6 x7 x8 x9 x10 x11) x12
    (shapeCast S1x128 x13 shapeCasts_S128_S1x128) x14 (shapeCast S1x128 x15 shapeCasts_S128_S1x128)

/-- The mean of the node features over each graph. -/
def out : (⟨S16384x128, .f32⟩ : BufTy).Contents (Elt Ideal) :=
  Host.divf (F := Ideal)
    (Host.scatterAdd (F := Ideal) scatter_S16384x128_S500000x1_S500000x128_1_0_0_1
      (broadcastInDim S16384x128 ![] bcast_S_S16384x128 (constant (F := Ideal) S_ .f32 0x00000000#32))
      (broadcastInDim S500000x1 ![0] bcast_S500000_S500000x1_0 x3)
      (h2 x0 x1 x2 x4 x5 x6 x7 x8 x9 x10 x11 x12 x13 x14 x15))
    (broadcastInDim S16384x128 ![0, 1] bcast_S16384x1_S16384x128_0_1
      (maximumf
        (Host.scatterAdd (F := Ideal) scatter_S16384x1_S500000x1_S500000x1_1_0_0_1
          (broadcastInDim S16384x1 ![] bcast_S_S16384x1 (constant (F := Ideal) S_ .f32 0x00000000#32))
          (broadcastInDim S500000x1 ![0] bcast_S500000_S500000x1_0 x3)
          (broadcastInDim S500000x1 ![] bcast_S_S500000x1 (constant (F := Ideal) S_ .f32 0x3F800000#32)))
        (broadcastInDim S16384x1 ![] bcast_S_S16384x1 (constant (F := Ideal) S_ .f32 0x3F800000#32))))

end Cert.KernelIdeal.Whole

end
-- ==== Proof.EdgeLin0.lean ====
/-
  What the edge region leaves in its output array: every row of the edge-attribute matrix through the affine map — the
  row times the weight matrix plus the bias row. The region works on blocks of 10000 rows: point `t` of its grid reads rows
  `10000·t … 10000·t + 9999` of the attributes, the whole weight matrix and the whole bias row, and writes back rows
  `10000·t …` of the result; the 200 blocks tile the 2000000 rows, so the array ends at the affine map of every row.
  The matrix product of a block into a zero accumulator is, entry by entry, the plain sum over the twelve attributes.
-/
import proofs.«127828_j66297115181623_2_alg».proof.Proof.Gen.KernelIdeal.Frame
import proofs.«127828_j66297115181623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeLin0

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer access are all zero. -/
theorem hz : (![0, 0] : Fin 2 → Nat) = fun _ => 0 := funext fun a => by fin_cases a <;> rfl

/-! ## The body's value at an entry of the block -/

theorem lhs0 (i : S10000x44.Idx) (k : dot_S10000x12_S12x44_S10000x44_1_0_0_1_n_n.contr.Idx) :
    (dot_S10000x12_S12x44_S10000x44_1_0_0_1_n_n.lhsIdx i k 0).val = (i 0).val := by
  unfold DotDims.lhsIdx
  rw [dif_neg (show ¬(0 : Fin S10000x12.rank) ∈ dot_S10000x12_S12x44_S10000x44_1_0_0_1_n_n.lhsBatch by decide), dif_pos (show (0 : Fin S10000x12.rank) ∈ dot_S10000x12_S12x44_S10000x44_1_0_0_1_n_n.lhsNonContracting by decide)]
  rfl
theorem lhs1 (i : S10000x44.Idx) (k : dot_S10000x12_S12x44_S10000x44_1_0_0_1_n_n.contr.Idx) :
    (dot_S10000x12_S12x44_S10000x44_1_0_0_1_n_n.lhsIdx i k 1).val = (k ⟨0, by decide⟩).val :=
  dot_S10000x12_S12x44_S10000x44_1_0_0_1_n_n.lhsIdx_val_of_single rfl i k
theorem rhs0 (i : S10000x44.Idx) (k : dot_S10000x12_S12x44_S10000x44_1_0_0_1_n_n.contr.Idx) :
    (dot_S10000x12_S12x44_S10000x44_1_0_0_1_n_n.rhsIdx i k 0).val = (k ⟨0, by decide⟩).val :=
  dot_S10000x12_S12x44_S10000x44_1_0_0_1_n_n.rhsIdx_val_of_single rfl i k
theorem rhs1 (i : S10000x44.Idx) (k : dot_S10000x12_S12x44_S10000x44_1_0_0_1_n_n.contr.Idx) :
    (dot_S10000x12_S12x44_S10000x44_1_0_0_1_n_n.rhsIdx i k 1).val = (i 1).val := by
  unfold DotDims.rhsIdx
  rw [dif_neg (show ¬(1 : Fin S12x44.rank) ∈ dot_S10000x12_S12x44_S10000x44_1_0_0_1_n_n.rhsBatch by decide), dif_pos (show (1 : Fin S12x44.rank) ∈ dot_S10000x12_S12x44_S10000x44_1_0_0_1_n_n.rhsNonContracting by decide)]
  rfl

/-- The block product into the zero accumulator, at row `p` and column `q`: the sum over the twelve attributes. -/
theorem prod_apply (x : FVec Ideal S10000x12 .bf16) (w : FVec Ideal S12x44 .bf16) (p : Fin 10000) (q : Fin 44) :
    matmul dot_S10000x12_S12x44_S10000x44_1_0_0_1_n_n none x w (constant S10000x44 .f32 0x00000000#32) (ix2 p q)
      = ∑ κ : Fin 12, x (ix2 p κ) * w (ix2 κ q) := by
  refine (Ideal.matmul_constant_zero_apply dot_S10000x12_S12x44_S10000x44_1_0_0_1_n_n none x w (ix2 p q)).trans ?_
  rw [← Equiv.sum_comp (ValueIdx.contrEquiv1 dot_S10000x12_S12x44_S10000x44_1_0_0_1_n_n 12 rfl rfl).symm]
  refine Finset.sum_congr rfl fun k _ => ?_
  have hk := ValueIdx.contrEquiv1_symm_val dot_S10000x12_S12x44_S10000x44_1_0_0_1_n_n 12 rfl rfl k
  have el : dot_S10000x12_S12x44_S10000x44_1_0_0_1_n_n.lhsIdx (ix2 p q) ((ValueIdx.contrEquiv1 dot_S10000x12_S12x44_S10000x44_1_0_0_1_n_n 12 rfl rfl).symm k) = ix2 p k := funext fun a => Fin.ext (by
    match a with
    | ⟨0, _⟩ => exact lhs0 _ _
    | ⟨1, _⟩ => exact (lhs1 _ _).trans hk)
  have er : dot_S10000x12_S12x44_S10000x44_1_0_0_1_n_n.rhsIdx (ix2 p q) ((ValueIdx.contrEquiv1 dot_S10000x12_S12x44_S10000x44_1_0_0_1_n_n 12 rfl rfl).symm k) = ix2 k q := funext fun a => Fin.ext (by
    match a with
    | ⟨0, _⟩ => exact (rhs0 _ _).trans hk
    | ⟨1, _⟩ => exact rhs1 _ _)
  rw [el, er]

/-- The body's stored value at row `p`, column `q` of the block: the row's product with the weights plus the bias. A change of
    float format is the identity on the extended reals. -/
theorem pay_apply (x : Vec Ideal S10000x12 .f32) (w : Vec Ideal S12x44 .f32) (b : Vec Ideal S1x44 .f32) (p : Fin 10000) (q : Fin 44) :
    k0_pay1 x w b (ix2 p q) = (∑ κ : Fin 12, x (ix2 p κ) * w (ix2 κ q)) + b (ix2 (0 : Fin 1) q) := by
  unfold k0_pay1
  show matmul (F := Ideal) dot_S10000x12_S12x44_S10000x44_1_0_0_1_n_n none (truncf .bf16 x bitsLt_bf16_f32) (truncf .bf16 w bitsLt_bf16_f32) (constant S10000x44 .f32 0x00000000#32) (ix2 p q)
      + broadcastTo S10000x44 (shapeCast S1x44 b shapeCasts_S1x44_S1x44) broadcasts_S1x44_S10000x44 (ix2 p q) = _
  rw [prod_apply, shapeCast_self, broadcastTo_1b_ab_apply]
  rfl

/-! ## The blocks -/

/-- The index maps, decided over the 200 points: the attributes' and the result's block index on the row axis is the
    point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What the region's output array ends holding, as one function of the arrays the region finds. -/
abbrev G (c : Dev nD) : S2000000x44.Idx → EReal :=
  Cert.Gine.affine 2000000 12 44 (V c main_arg1) (V c main_arg4) (V c main_v4)

/-- The attributes' block at point `t`, entry `(p, κ)`: row `10000·t + p` of the attributes. -/
theorem blk0 (c : Dev nD) (t : Fin cfg0.N) (p : Fin 10000) (κ : Fin 12) (hp : t.val * 10000 + p.val < 2000000) :
    iblk0 V c 0 t (ix2 p κ) = V c main_arg1 (ix2 ⟨t.val * 10000 + p.val, hp⟩ κ) := by
  obtain ⟨e0, e1, -⟩ := idx_facts t
  show V c main_arg1 (((cfg0.win 0).blk t).view.emb (ix2 p κ)) = V c main_arg1 _
  refine congrArg (V c main_arg1) (funext fun a => Fin.ext ?_)
  match a with
  | ⟨0, _⟩ => show win0_0.index t (0 : Fin 2) * 10000 + 1 * p.val = t.val * 10000 + p.val; omega
  | ⟨1, _⟩ => show win0_0.index t (1 : Fin 2) * 12 + 1 * κ.val = κ.val; omega

/-- The weights' block at any point is the whole weight matrix. -/
theorem blk1 (c : Dev nD) (t : Fin cfg0.N) (κ : Fin 12) (q : Fin 44) :
    iblk0 V c 1 t (ix2 κ q) = V c main_arg4 (ix2 κ q) := by
  obtain ⟨-, -, e0, e1, -⟩ := idx_facts t
  show V c main_arg4 (((cfg0.win 1).blk t).view.emb (ix2 κ q)) = V c main_arg4 _
  refine congrArg (V c main_arg4) (funext fun a => Fin.ext ?_)
  match a with
  | ⟨0, _⟩ => show win0_1.index t (0 : Fin 2) * 12 + 1 * κ.val = κ.val; omega
  | ⟨1, _⟩ => show win0_1.index t (1 : Fin 2) * 44 + 1 * q.val = q.val; omega

/-- The bias row's block at any point is the whole row. -/
theorem blk2 (c : Dev nD) (t : Fin cfg0.N) (u : Fin 1) (q : Fin 44) :
    iblk0 V c 2 t (ix2 u q) = V c main_v4 (ix2 u q) := by
  obtain ⟨-, -, -, -, e0, e1, -⟩ := idx_facts t
  show V c main_v4 (((cfg0.win 2).blk t).view.emb (ix2 u q)) = V c main_v4 _
  refine congrArg (V c main_v4) (funext fun a => Fin.ext ?_)
  match a with
  | ⟨0, _⟩ => show win0_2.index t (0 : Fin 2) * 1 + 1 * u.val = u.val; omega
  | ⟨1, _⟩ => show win0_2.index t (1 : Fin 2) * 44 + 1 * q.val = q.val; omega

/-- What point `t` writes back is block `t` of the affine map of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x12) hz, View.ld_unit_zero (S := S12x44) hz, View.ld_unit_zero (S := S1x44) hz]
  funext y
  obtain ⟨p, q, rfl⟩ : ∃ (p : Fin 10000) (q : Fin 44), y = ix2 p q := ⟨y 0, y 1, eq_ix2 y⟩
  have ht : t.val < 200 := Nat.lt_of_lt_of_eq t.isLt N_0
  have hp : t.val * 10000 + p.val < 2000000 := by have := p.isLt; omega
  obtain ⟨-, -, -, -, -, -, e0, e1⟩ := idx_facts t
  have hemb : ((cfg0.win 3).blk t).view.emb (ix2 p q) = (ix2 ⟨t.val * 10000 + p.val, hp⟩ q : S2000000x44.Idx) := funext fun a => Fin.ext (by
    match a with
    | ⟨0, _⟩ => show win0_3.index t (0 : Fin 2) * 10000 + 1 * p.val = t.val * 10000 + p.val; omega
    | ⟨1, _⟩ => show win0_3.index t (1 : Fin 2) * 44 + 1 * q.val = q.val; omega)
  show k0_pay1 (iblk0 V c 0 t) (iblk0 V c 1 t) (iblk0 V c 2 t) (ix2 p q) = G V c (((cfg0.win 3).blk t).view.emb (ix2 p q))
  rw [hemb, pay_apply]
  refine Eq.trans ?_ (Cert.Gine.affine_apply 2000000 12 44 (V c main_arg1) (V c main_arg4) (V c main_v4) ⟨t.val * 10000 + p.val, hp⟩ q).symm
  rw [blk2 V c t 0 q]
  refine congrArg (· + V c main_v4 (ix2 (0 : Fin 1) q)) (Finset.sum_congr rfl fun κ _ => ?_)
  rw [blk0 V c t p κ hp, blk1 V c t κ q]

/-- An index of the array is in point `t`'s block iff each coordinate is in the block's range on its axis. -/
theorem mem_blk (t : Fin cfg0.N) (i : S2000000x44.Idx) :
    i ∈ ((cfg0.win 3).blk t).view.set ↔ ∀ a : Fin 2, win0_3.index t a * S10000x44.size a ≤ (i a).val ∧ (i a).val < win0_3.index t a * S10000x44.size a + S10000x44.size a := by
  show i ∈ ((View.whole main_v5).slice (win0_3.rect t)).set ↔ _
  rw [View.set_slice_whole, Rect.mem_set_unit]
  exact Iff.rfl

/-- Every row of the array lies in the block of the point `row / 10000`. -/
theorem cover (i : S2000000x44.Idx) : ∃ t : Fin cfg0.N, (cfg0.win 3).flush t = true ∧ i ∈ ((cfg0.win 3).blk t).view.set := by
  have hi0 : (i 0).val < 2000000 := (i 0).isLt
  have hi1 : (i 1).val < 44 := (i 1).isLt
  have hN : cfg0.N = 200 := N_0
  let t : Fin cfg0.N := ⟨(i 0).val / 10000, by rw [hN]; omega⟩
  obtain ⟨-, -, -, -, -, -, e0, e1⟩ := idx_facts t
  have e0' : win0_3.index t (0 : Fin 2) = (i 0).val / 10000 := e0
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 44 ≤ (i 1).val ∧ (i 1).val < win0_3.index t (1 : Fin 2) * 44 + 44; omega

/-- The region's output array after the region: the affine map of every row of the attributes. -/
theorem final (c : Dev nD) :
    (dat0 V c).arrAt 3 cfg0.N = Cert.Gine.affine 2000000 12 44 (V c main_arg1) (V c main_arg4) (V c main_v4) :=
  (dat0 V c).arrAt_eq_of_cover 3 (G V c) (fun t _ => flushed_eq V c t) cover

end Cert.KernelIdeal.EdgeLin0

end
-- ==== Proof.EdgeLin2.lean ====
/-
  What the edge region leaves in its output array: every row of the edge-attribute matrix through the affine map — the
  row times the weight matrix plus the bias row. The region works on blocks of 10000 rows: point `t` of its grid reads rows
  `10000·t … 10000·t + 9999` of the attributes, the whole weight matrix and the whole bias row, and writes back rows
  `10000·t …` of the result; the 200 blocks tile the 2000000 rows, so the array ends at the affine map of every row.
  The matrix product of a block into a zero accumulator is, entry by entry, the plain sum over the twelve attributes.
-/
import proofs.«127828_j66297115181623_2_alg».proof.Proof.Gen.KernelIdeal.Frame
import proofs.«127828_j66297115181623_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeLin2

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer access are all zero. -/
theorem hz : (![0, 0] : Fin 2 → Nat) = fun _ => 0 := funext fun a => by fin_cases a <;> rfl

/-! ## The body's value at an entry of the block -/

theorem lhs0 (i : S10000x64.Idx) (k : dot_S10000x12_S12x64_S10000x64_1_0_0_1_n_n.contr.Idx) :
    (dot_S10000x12_S12x64_S10000x64_1_0_0_1_n_n.lhsIdx i k 0).val = (i 0).val := by
  unfold DotDims.lhsIdx
  rw [dif_neg (show ¬(0 : Fin S10000x12.rank) ∈ dot_S10000x12_S12x64_S10000x64_1_0_0_1_n_n.lhsBatch by decide), dif_pos (show (0 : Fin S10000x12.rank) ∈ dot_S10000x12_S12x64_S10000x64_1_0_0_1_n_n.lhsNonContracting by decide)]
  rfl
theorem lhs1 (i : S10000x64.Idx) (k : dot_S10000x12_S12x64_S10000x64_1_0_0_1_n_n.contr.Idx) :
    (dot_S10000x12_S12x64_S10000x64_1_0_0_1_n_n.lhsIdx i k 1).val = (k ⟨0, by decide⟩).val :=
  dot_S10000x12_S12x64_S10000x64_1_0_0_1_n_n.lhsIdx_val_of_single rfl i k
theorem rhs0 (i : S10000x64.Idx) (k : dot_S10000x12_S12x64_S10000x64_1_0_0_1_n_n.contr.Idx) :
    (dot_S10000x12_S12x64_S10000x64_1_0_0_1_n_n.rhsIdx i k 0).val = (k ⟨0, by decide⟩).val :=
  dot_S10000x12_S12x64_S10000x64_1_0_0_1_n_n.rhsIdx_val_of_single rfl i k
theorem rhs1 (i : S10000x64.Idx) (k : dot_S10000x12_S12x64_S10000x64_1_0_0_1_n_n.contr.Idx) :
    (dot_S10000x12_S12x64_S10000x64_1_0_0_1_n_n.rhsIdx i k 1).val = (i 1).val := by
  unfold DotDims.rhsIdx
  rw [dif_neg (show ¬(1 : Fin S12x64.rank) ∈ dot_S10000x12_S12x64_S10000x64_1_0_0_1_n_n.rhsBatch by decide), dif_pos (show (1 : Fin S12x64.rank) ∈ dot_S10000x12_S12x64_S10000x64_1_0_0_1_n_n.rhsNonContracting by decide)]
  rfl

/-- The block product into the zero accumulator, at row `p` and column `q`: the sum over the twelve attributes. -/
theorem prod_apply (x : FVec Ideal S10000x12 .bf16) (w : FVec Ideal S12x64 .bf16) (p : Fin 10000) (q : Fin 64) :
    matmul dot_S10000x12_S12x64_S10000x64_1_0_0_1_n_n none x w (constant S10000x64 .f32 0x00000000#32) (ix2 p q)
      = ∑ κ : Fin 12, x (ix2 p κ) * w (ix2 κ q) := by
  refine (Ideal.matmul_constant_zero_apply dot_S10000x12_S12x64_S10000x64_1_0_0_1_n_n none x w (ix2 p q)).trans ?_
  rw [← Equiv.sum_comp (ValueIdx.contrEquiv1 dot_S10000x12_S12x64_S10000x64_1_0_0_1_n_n 12 rfl rfl).symm]
  refine Finset.sum_congr rfl fun k _ => ?_
  have hk := ValueIdx.contrEquiv1_symm_val dot_S10000x12_S12x64_S10000x64_1_0_0_1_n_n 12 rfl rfl k
  have el : dot_S10000x12_S12x64_S10000x64_1_0_0_1_n_n.lhsIdx (ix2 p q) ((ValueIdx.contrEquiv1 dot_S10000x12_S12x64_S10000x64_1_0_0_1_n_n 12 rfl rfl).symm k) = ix2 p k := funext fun a => Fin.ext (by
    match a with
    | ⟨0, _⟩ => exact lhs0 _ _
    | ⟨1, _⟩ => exact (lhs1 _ _).trans hk)
  have er : dot_S10000x12_S12x64_S10000x64_1_0_0_1_n_n.rhsIdx (ix2 p q) ((ValueIdx.contrEquiv1 dot_S10000x12_S12x64_S10000x64_1_0_0_1_n_n 12 rfl rfl).symm k) = ix2 k q := funext fun a => Fin.ext (by
    match a with
    | ⟨0, _⟩ => exact (rhs0 _ _).trans hk
    | ⟨1, _⟩ => exact rhs1 _ _)
  rw [el, er]

/-- The body's stored value at row `p`, column `q` of the block: the row's product with the weights plus the bias. A change of
    float format is the identity on the extended reals. -/
theorem pay_apply (x : Vec Ideal S10000x12 .f32) (w : Vec Ideal S12x64 .f32) (b : Vec Ideal S1x64 .f32) (p : Fin 10000) (q : Fin 64) :
    k2_pay1 x w b (ix2 p q) = (∑ κ : Fin 12, x (ix2 p κ) * w (ix2 κ q)) + b (ix2 (0 : Fin 1) q) := by
  unfold k2_pay1
  show matmul (F := Ideal) dot_S10000x12_S12x64_S10000x64_1_0_0_1_n_n none (truncf .bf16 x bitsLt_bf16_f32) (truncf .bf16 w bitsLt_bf16_f32) (constant S10000x64 .f32 0x00000000#32) (ix2 p q)
      + broadcastTo S10000x64 (shapeCast S1x64 b shapeCasts_S1x64_S1x64) broadcasts_S1x64_S10000x64 (ix2 p q) = _
  rw [prod_apply, shapeCast_self, broadcastTo_1b_ab_apply]
  rfl

/-! ## The blocks -/

/-- The index maps, decided over the 200 points: the attributes' and the result's block index on the row axis is the
    point, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What the region's output array ends holding, as one function of the arrays the region finds. -/
abbrev G (c : Dev nD) : S2000000x64.Idx → EReal :=
  Cert.Gine.affine 2000000 12 64 (V c main_arg1) (V c main_arg10) (V c main_v24)

/-- The attributes' block at point `t`, entry `(p, κ)`: row `10000·t + p` of the attributes. -/
theorem blk0 (c : Dev nD) (t : Fin cfg2.N) (p : Fin 10000) (κ : Fin 12) (hp : t.val * 10000 + p.val < 2000000) :
    iblk2 V c 0 t (ix2 p κ) = V c main_arg1 (ix2 ⟨t.val * 10000 + p.val, hp⟩ κ) := by
  obtain ⟨e0, e1, -⟩ := idx_facts t
  show V c main_arg1 (((cfg2.win 0).blk t).view.emb (ix2 p κ)) = V c main_arg1 _
  refine congrArg (V c main_arg1) (funext fun a => Fin.ext ?_)
  match a with
  | ⟨0, _⟩ => show win2_0.index t (0 : Fin 2) * 10000 + 1 * p.val = t.val * 10000 + p.val; omega
  | ⟨1, _⟩ => show win2_0.index t (1 : Fin 2) * 12 + 1 * κ.val = κ.val; omega

/-- The weights' block at any point is the whole weight matrix. -/
theorem blk1 (c : Dev nD) (t : Fin cfg2.N) (κ : Fin 12) (q : Fin 64) :
    iblk2 V c 1 t (ix2 κ q) = V c main_arg10 (ix2 κ q) := by
  obtain ⟨-, -, e0, e1, -⟩ := idx_facts t
  show V c main_arg10 (((cfg2.win 1).blk t).view.emb (ix2 κ q)) = V c main_arg10 _
  refine congrArg (V c main_arg10) (funext fun a => Fin.ext ?_)
  match a with
  | ⟨0, _⟩ => show win2_1.index t (0 : Fin 2) * 12 + 1 * κ.val = κ.val; omega
  | ⟨1, _⟩ => show win2_1.index t (1 : Fin 2) * 64 + 1 * q.val = q.val; omega

/-- The bias row's block at any point is the whole row. -/
theorem blk2 (c : Dev nD) (t : Fin cfg2.N) (u : Fin 1) (q : Fin 64) :
    iblk2 V c 2 t (ix2 u q) = V c main_v24 (ix2 u q) := by
  obtain ⟨-, -, -, -, e0, e1, -⟩ := idx_facts t
  show V c main_v24 (((cfg2.win 2).blk t).view.emb (ix2 u q)) = V c main_v24 _
  refine congrArg (V c main_v24) (funext fun a => Fin.ext ?_)
  match a with
  | ⟨0, _⟩ => show win2_2.index t (0 : Fin 2) * 1 + 1 * u.val = u.val; omega
  | ⟨1, _⟩ => show win2_2.index t (1 : Fin 2) * 64 + 1 * q.val = q.val; omega

/-- What point `t` writes back is block `t` of the affine map of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S10000x12) hz, View.ld_unit_zero (S := S12x64) hz, View.ld_unit_zero (S := S1x64) hz]
  funext y
  obtain ⟨p, q, rfl⟩ : ∃ (p : Fin 10000) (q : Fin 64), y = ix2 p q := ⟨y 0, y 1, eq_ix2 y⟩
  have ht : t.val < 200 := Nat.lt_of_lt_of_eq t.isLt N_2
  have hp : t.val * 10000 + p.val < 2000000 := by have := p.isLt; omega
  obtain ⟨-, -, -, -, -, -, e0, e1⟩ := idx_facts t
  have hemb : ((cfg2.win 3).blk t).view.emb (ix2 p q) = (ix2 ⟨t.val * 10000 + p.val, hp⟩ q : S2000000x64.Idx) := funext fun a => Fin.ext (by
    match a with
    | ⟨0, _⟩ => show win2_3.index t (0 : Fin 2) * 10000 + 1 * p.val = t.val * 10000 + p.val; omega
    | ⟨1, _⟩ => show win2_3.index t (1 : Fin 2) * 64 + 1 * q.val = q.val; omega)
  show k2_pay1 (iblk2 V c 0 t) (iblk2 V c 1 t) (iblk2 V c 2 t) (ix2 p q) = G V c (((cfg2.win 3).blk t).view.emb (ix2 p q))
  rw [hemb, pay_apply]
  refine Eq.trans ?_ (Cert.Gine.affine_apply 2000000 12 64 (V c main_arg1) (V c main_arg10) (V c main_v24) ⟨t.val * 10000 + p.val, hp⟩ q).symm
  rw [blk2 V c t 0 q]
  refine congrArg (· + V c main_v24 (ix2 (0 : Fin 1) q)) (Finset.sum_congr rfl fun κ _ => ?_)
  rw [blk0 V c t p κ hp, blk1 V c t κ q]

/-- An index of the array is in point `t`'s block iff each coordinate is in the block's range on its axis. -/
theorem mem_blk (t : Fin cfg2.N) (i : S2000000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v25).slice (win2_3.rect t)).set ↔ _
  rw [View.set_slice_whole, Rect.mem_set_unit]
  exact Iff.rfl

/-- Every row of the array lies in the block of the point `row / 10000`. -/
theorem cover (i : S2000000x64.Idx) : ∃ t : Fin cfg2.N, (cfg2.win 3).flush t = true ∧ i ∈ ((cfg2.win 3).blk t).view.set := by
  have hi0 : (i 0).val < 2000000 := (i 0).isLt
  have hi1 : (i 1).val < 64 := (i 1).isLt
  have hN : cfg2.N = 200 := N_2
  let t : Fin cfg2.N := ⟨(i 0).val / 10000, by rw [hN]; omega⟩
  obtain ⟨-, -, -, -, -, -, e0, e1⟩ := idx_facts t
  have e0' : win2_3.index t (0 : Fin 2) = (i 0).val / 10000 := e0
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The region's output array after the region: the affine map of every row of the attributes. -/
theorem final (c : Dev nD) :
    (dat2 V c).arrAt 3 cfg2.N = Cert.Gine.affine 2000000 12 64 (V c main_arg1) (V c main_arg10) (V c main_v24) :=
  (dat2 V c).arrAt_eq_of_cover 3 (G V c) (fun t _ => flushed_eq V c t) cover

end Cert.KernelIdeal.EdgeLin2

end
-- ==== Proof.NodeMlp1.lean ====
/-
  The value of the first node update: after its grid has run, the output array holds, at every row and column, the
  two-layer perceptron of the row of the two input arrays' sum, clipped below at zero — whatever the arrays held when
  the update began. The payload of one grid point is read at an index (two matrix products into a zero accumulator, a
  bias row broadcast over the rows, a clip at zero twice); each block a grid point reads is the matching rows of its array
  (the weights and biases are read whole at every point); the blocks of 5000 rows the points write tile the 500000 rows.
-/
import proofs.«127828_j66297115181623_2_alg».proof.Proof.Gen.KernelIdeal.Frame
import proofs.«127828_j66297115181623_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeMlp1

open Cert.KernelIdeal Cert.KernelIdeal.Gen Idealize.ShloMosaic Idealize.ShloMosaic.TcCoe Idealize.ShloMosaic.ValueIdx Idealize.SL.Sem
open Idealize.ShloMosaic.Pipeline (Dat)

/-! ## The payload at an index -/

theorem lhsA_0 (i : S5000x64.Idx) (k : dot_S5000x44_S44x64_S5000x64_1_0_0_1_n_n.contr.Idx) :
    (dot_S5000x44_S44x64_S5000x64_1_0_0_1_n_n.lhsIdx i k 0).val = (i 0).val := by
  unfold DotDims.lhsIdx
  rw [dif_neg (show ¬(0 : Fin S5000x44.rank) ∈ dot_S5000x44_S44x64_S5000x64_1_0_0_1_n_n.lhsBatch by decide), dif_pos (show (0 : Fin S5000x44.rank) ∈ dot_S5000x44_S44x64_S5000x64_1_0_0_1_n_n.lhsNonContracting by decide)]
  rfl

theorem rhsA_1 (i : S5000x64.Idx) (k : dot_S5000x44_S44x64_S5000x64_1_0_0_1_n_n.contr.Idx) :
    (dot_S5000x44_S44x64_S5000x64_1_0_0_1_n_n.rhsIdx i k 1).val = (i 1).val := by
  unfold DotDims.rhsIdx
  rw [dif_neg (show ¬(1 : Fin S44x64.rank) ∈ dot_S5000x44_S44x64_S5000x64_1_0_0_1_n_n.rhsBatch by decide), dif_pos (show (1 : Fin S44x64.rank) ∈ dot_S5000x44_S44x64_S5000x64_1_0_0_1_n_n.rhsNonContracting by decide)]
  rfl

/-- A matrix product into the zero accumulator, read at row `p` and column `q`: the sum over the contracted axis of the
    products of the left operand's row and the right operand's column. -/
theorem matmulA_apply (a : FVec Ideal S5000x44 .bf16) (w : FVec Ideal S44x64 .bf16) (p : Fin 5000) (q : Fin 64) :
    matmul dot_S5000x44_S44x64_S5000x64_1_0_0_1_n_n none a w (constant S5000x64 .f32 0x00000000#32) (ix2 p q)
      = ∑ l : Fin 44, a (ix2 p l) * w (ix2 l q) := by
  refine (Ideal.matmul_constant_zero_apply dot_S5000x44_S44x64_S5000x64_1_0_0_1_n_n none a w (ix2 p q)).trans ?_
  rw [← Equiv.sum_comp (ValueIdx.contrEquiv1 dot_S5000x44_S44x64_S5000x64_1_0_0_1_n_n 44 rfl rfl).symm]
  refine Finset.sum_congr rfl fun k _ => ?_
  have hk := ValueIdx.contrEquiv1_symm_val dot_S5000x44_S44x64_S5000x64_1_0_0_1_n_n 44 rfl rfl k
  have el : dot_S5000x44_S44x64_S5000x64_1_0_0_1_n_n.lhsIdx (ix2 p q) ((ValueIdx.contrEquiv1 dot_S5000x44_S44x64_S5000x64_1_0_0_1_n_n 44 rfl rfl).symm k) = ix2 p k := funext fun a => Fin.ext (by
    match a with
    | ⟨0, _⟩ => exact lhsA_0 _ _
    | ⟨1, _⟩ => exact (dot_S5000x44_S44x64_S5000x64_1_0_0_1_n_n.lhsIdx_val_of_single rfl _ _).trans hk)
  have er : dot_S5000x44_S44x64_S5000x64_1_0_0_1_n_n.rhsIdx (ix2 p q) ((ValueIdx.contrEquiv1 dot_S5000x44_S44x64_S5000x64_1_0_0_1_n_n 44 rfl rfl).symm k) = ix2 k q := funext fun a => Fin.ext (by
    match a with
    | ⟨0, _⟩ => exact (dot_S5000x44_S44x64_S5000x64_1_0_0_1_n_n.rhsIdx_val_of_single rfl _ _).trans hk
    | ⟨1, _⟩ => exact rhsA_1 _ _)
  rw [el, er]

theorem lhsB_0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem rhsB_1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A matrix product into the zero accumulator, read at row `p` and column `q`: the sum over the contracted axis of the
    products of the left operand's row and the right operand's column. -/
theorem matmulB_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ l : Fin 64, a (ix2 p l) * w (ix2 l q) := by
  refine (Ideal.matmul_constant_zero_apply dot_S5000x64_S64x64_S5000x64_1_0_0_1_n_n none a w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhsB_1 _ _)
  rw [el, er]

/-- The zero the clip compares with. -/
theorem ofBits_zero : (FloatOps.ofBits (F := Ideal) .f32 0x00000000#32 : Ideal .f32) = 0 := Ideal.ofBits_zero_f32

/-- The node update's payload at row `p` and column `q` of a block: the row of `x0 + x1` through the first affine map,
    clipped at zero, through the second affine map, clipped at zero. -/
theorem pay_apply (x0 x1 : Vec Ideal S5000x44 .f32) (wa : Vec Ideal S44x64 .f32) (ba : Vec Ideal S1x64 .f32) (wb : Vec Ideal S64x64 .f32) (bb : Vec Ideal S1x64 .f32) (p : Fin 5000) (q : Fin 64) :
    k1_pay1 x0 x1 wa ba wb bb (ix2 p q) = max ((∑ κ : Fin 64, max ((∑ l : Fin 44, (x0 (ix2 p l) + x1 (ix2 p l)) * wa (ix2 l κ)) + ba (ix2 (0 : Fin 1) κ)) 0 * wb (ix2 κ q)) + bb (ix2 (0 : Fin 1) q)) 0 := by
  unfold k1_pay1
  simp only [shapeCast_self]
  refine (maximumf_apply _ _ _).trans ?_
  refine congrArg₂ max ?_ ofBits_zero
  refine (addf_apply _ _ _).trans ?_
  refine congrArg₂ (· + ·) ?_ (ValueIdx.broadcastTo_1b_ab_apply bb _ p q)
  refine (matmulB_apply _ _ p q).trans ?_
  refine Finset.sum_congr rfl fun κ _ => ?_
  refine congrArg₂ (· * ·) ?_ rfl
  refine (maximumf_apply _ _ _).trans ?_
  refine congrArg₂ max ?_ ofBits_zero
  refine (addf_apply _ _ _).trans ?_
  refine congrArg₂ (· + ·) ?_ (ValueIdx.broadcastTo_1b_ab_apply ba _ p κ)
  exact matmulA_apply _ _ p κ

/-! ## The blocks a grid point reads and writes -/

theorem hz : (![0, 0] : Fin 2 → Nat) = fun _ => 0 := funext fun a => by fin_cases a <;> rfl

/-! The block index of every window at every one of the 100 grid points, decided: the two row-blocked inputs and the
    output sit at block `t` of the rows at point `t`; the weights and biases at block 0. -/

theorem idx0 : ∀ t : Fin cfg1.N, win1_0.index t (0 : Fin 2) = t.val ∧ win1_0.index t (1 : Fin 2) = 0 :=
  (by decide +kernel : ∀ t : Fin grid1.N, _)

theorem idx1 : ∀ t : Fin cfg1.N, win1_1.index t (0 : Fin 2) = t.val ∧ win1_1.index t (1 : Fin 2) = 0 :=
  (by decide +kernel : ∀ t : Fin grid1.N, _)

theorem idx2 : ∀ t : Fin cfg1.N, win1_2.index t (0 : Fin 2) = 0 ∧ win1_2.index t (1 : Fin 2) = 0 :=
  (by decide +kernel : ∀ t : Fin grid1.N, _)

theorem idx3 : ∀ t : Fin cfg1.N, win1_3.index t (0 : Fin 2) = 0 ∧ win1_3.index t (1 : Fin 2) = 0 :=
  (by decide +kernel : ∀ t : Fin grid1.N, _)

theorem idx4 : ∀ t : Fin cfg1.N, win1_4.index t (0 : Fin 2) = 0 ∧ win1_4.index t (1 : Fin 2) = 0 :=
  (by decide +kernel : ∀ t : Fin grid1.N, _)

theorem idx5 : ∀ t : Fin cfg1.N, win1_5.index t (0 : Fin 2) = 0 ∧ win1_5.index t (1 : Fin 2) = 0 :=
  (by decide +kernel : ∀ t : Fin grid1.N, _)

theorem idx6 : ∀ t : Fin cfg1.N, win1_6.index t (0 : Fin 2) = t.val ∧ win1_6.index t (1 : Fin 2) = 0 :=
  (by decide +kernel : ∀ t : Fin grid1.N, _)

theorem point_lt (t : Fin cfg1.N) : t.val < 100 := lt_of_lt_of_eq t.isLt N_1

/-- The first input's block at point `t` is rows `5000 t … 5000 t + 4999` of its array. -/
theorem blk0_apply (V : (c : Dev nD) → (b : Ref sig .tc) → Buf (Elt Ideal) ((c : Thread nD τ).loc b)) (c : Dev nD) (t : Fin cfg1.N) (p : Fin 5000) (l : Fin 44) (h : t.val * 5000 + p.val < 500000) :
    (iblk1 (F := Ideal) V c 0 t : Vec Ideal S5000x44 .f32) (ix2 p l)
      = (V c main_arg0 : S500000x44.Idx → Elt Ideal .f32) (ix2 ⟨t.val * 5000 + p.val, h⟩ l) := by
  obtain ⟨e0, e1⟩ := idx0 t
  unfold iblk1
  rw [View.read_apply]
  show V c main_arg0 _ = V c main_arg0 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 44 + 1 * l.val = l.val; rw [e1]; omega

/-- The second input's block at point `t` is the same rows of its array. -/
theorem blk1_apply (V : (c : Dev nD) → (b : Ref sig .tc) → Buf (Elt Ideal) ((c : Thread nD τ).loc b)) (c : Dev nD) (t : Fin cfg1.N) (p : Fin 5000) (l : Fin 44) (h : t.val * 5000 + p.val < 500000) :
    (iblk1 (F := Ideal) V c 1 t : Vec Ideal S5000x44 .f32) (ix2 p l)
      = (V c main_v20 : S500000x44.Idx → Elt Ideal .f32) (ix2 ⟨t.val * 5000 + p.val, h⟩ l) := by
  obtain ⟨e0, e1⟩ := idx1 t
  unfold iblk1
  rw [View.read_apply]
  show V c main_v20 _ = V c main_v20 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 44 + 1 * l.val = l.val; rw [e1]; omega

/-- The first weight matrix is read whole at every point. -/
theorem blk2_apply (V : (c : Dev nD) → (b : Ref sig .tc) → Buf (Elt Ideal) ((c : Thread nD τ).loc b)) (c : Dev nD) (t : Fin cfg1.N) (l : Fin 44) (κ : Fin 64) :
    (iblk1 (F := Ideal) V c 2 t : Vec Ideal S44x64 .f32) (ix2 l κ)
      = (V c main_arg6 : S44x64.Idx → Elt Ideal .f32) (ix2 l κ) := by
  obtain ⟨e0, e1⟩ := idx2 t
  unfold iblk1
  rw [View.read_apply]
  show V c main_arg6 _ = V c main_arg6 _
  congr 1
  funext a
  apply Fin.ext
  match a with
  | ⟨0, _⟩ => show win1_2.index t (0 : Fin 2) * 44 + 1 * l.val = l.val; rw [e0]; omega
  | ⟨1, _⟩ => show win1_2.index t (1 : Fin 2) * 64 + 1 * κ.val = κ.val; rw [e1]; omega

/-- The first bias row is read whole at every point. -/
theorem blk3_apply (V : (c : Dev nD) → (b : Ref sig .tc) → Buf (Elt Ideal) ((c : Thread nD τ).loc b)) (c : Dev nD) (t : Fin cfg1.N) (u : Fin 1) (κ : Fin 64) :
    (iblk1 (F := Ideal) V c 3 t : Vec Ideal S1x64 .f32) (ix2 u κ)
      = (V c main_v21 : S1x64.Idx → Elt Ideal .f32) (ix2 u κ) := by
  obtain ⟨e0, e1⟩ := idx3 t
  unfold iblk1
  rw [View.read_apply]
  show V c main_v21 _ = V c main_v21 _
  congr 1
  funext a
  apply Fin.ext
  match a with
  | ⟨0, _⟩ => show win1_3.index t (0 : Fin 2) * 1 + 1 * u.val = u.val; rw [e0]; omega
  | ⟨1, _⟩ => show win1_3.index t (1 : Fin 2) * 64 + 1 * κ.val = κ.val; rw [e1]; omega

/-- The second weight matrix is read whole at every point. -/
theorem blk4_apply (V : (c : Dev nD) → (b : Ref sig .tc) → Buf (Elt Ideal) ((c : Thread nD τ).loc b)) (c : Dev nD) (t : Fin cfg1.N) (κ : Fin 64) (q : Fin 64) :
    (iblk1 (F := Ideal) V c 4 t : Vec Ideal S64x64 .f32) (ix2 κ q)
      = (V c main_arg8 : S64x64.Idx → Elt Ideal .f32) (ix2 κ q) := by
  obtain ⟨e0, e1⟩ := idx4 t
  unfold iblk1
  rw [View.read_apply]
  show V c main_arg8 _ = V c main_arg8 _
  congr 1
  funext a
  apply Fin.ext
  match a with
  | ⟨0, _⟩ => show win1_4.index t (0 : Fin 2) * 64 + 1 * κ.val = κ.val; rw [e0]; omega
  | ⟨1, _⟩ => show win1_4.index t (1 : Fin 2) * 64 + 1 * q.val = q.val; rw [e1]; omega

/-- The second bias row is read whole at every point. -/
theorem blk5_apply (V : (c : Dev nD) → (b : Ref sig .tc) → Buf (Elt Ideal) ((c : Thread nD τ).loc b)) (c : Dev nD) (t : Fin cfg1.N) (u : Fin 1) (q : Fin 64) :
    (iblk1 (F := Ideal) V c 5 t : Vec Ideal S1x64 .f32) (ix2 u q)
      = (V c main_v22 : S1x64.Idx → Elt Ideal .f32) (ix2 u q) := by
  obtain ⟨e0, e1⟩ := idx5 t
  unfold iblk1
  rw [View.read_apply]
  show V c main_v22 _ = V c main_v22 _
  congr 1
  funext a
  apply Fin.ext
  match a with
  | ⟨0, _⟩ => show win1_5.index t (0 : Fin 2) * 1 + 1 * u.val = u.val; rw [e0]; omega
  | ⟨1, _⟩ => show win1_5.index t (1 : Fin 2) * 64 + 1 * q.val = q.val; rw [e1]; omega

/-- What point `t` writes back is block `t` of the perceptron, clipped, of the arrays as the update finds them. -/
theorem flushed_eq (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal)
      (Cert.Gine.relu (Cert.Gine.mlp 500000 44 64 64 (V c main_arg0) (V c main_v20) (V c main_arg6) (V c main_v21) (V c main_arg8) (V c main_v22))) := by
  show (cfg1.win 6).cut (grid1.coords t) ((dat1 V c).after 6 t) = _
  rw [after1_6]
  unfold out1_6
  rw [View.canon_unit_zero hz]
  simp only [View.ld_unit_zero (S := S5000x44) hz, View.ld_unit_zero (S := S44x64) hz, View.ld_unit_zero (S := S1x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  have ht := point_lt t
  have h : t.val * 5000 + p.val < 500000 := by have := p.isLt; omega
  obtain ⟨e0, e1⟩ := idx6 t
  have hemb : ((cfg1.win 6).blk t).view.emb (ix2 p q) = (ix2 ⟨t.val * 5000 + p.val, h⟩ q : S500000x64.Idx) := by
    funext a
    apply Fin.ext
    match a with
    | ⟨0, _⟩ => show win1_6.index t (0 : Fin 2) * 5000 + 1 * p.val = t.val * 5000 + p.val; rw [e0]; omega
    | ⟨1, _⟩ => show win1_6.index t (1 : Fin 2) * 64 + 1 * q.val = q.val; rw [e1]; omega
  show k1_pay1 (iblk1 V c 0 t) (iblk1 V c 1 t) (iblk1 V c 2 t) (iblk1 V c 3 t) (iblk1 V c 4 t) (iblk1 V c 5 t) (ix2 p q)
    = (Cert.Gine.relu (Cert.Gine.mlp 500000 44 64 64 (V c main_arg0) (V c main_v20) (V c main_arg6) (V c main_v21) (V c main_arg8) (V c main_v22))) (((cfg1.win 6).blk t).view.emb (ix2 p q))
  rw [hemb]
  refine (pay_apply _ _ _ _ _ _ p q).trans ?_
  refine congrArg₂ max ?_ rfl
  exact (congrArg₂ (· + ·)
    (Finset.sum_congr rfl fun κ _ => congrArg₂ (· * ·)
      (congrArg₂ max (congrArg₂ (· + ·)
        (Finset.sum_congr rfl fun l _ => congrArg₂ (· * ·)
          (congrArg₂ (· + ·) (blk0_apply V c t p l h) (blk1_apply V c t p l h)) (blk2_apply V c t l κ))
        (blk3_apply V c t (0 : Fin 1) κ)) rfl)
      (blk4_apply V c t κ q))
    (blk5_apply V c t (0 : Fin 1) q))

/-! ## From the blocks to the array -/

/-- An index of the output array is in point `t`'s block iff each coordinate is in the block's range on its axis. -/
theorem mem_blk (t : Fin cfg1.N) (i : S500000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v23).slice (win1_6.rect t)).set ↔ _
  rw [View.set_slice_whole, Rect.mem_set_unit]
  exact Iff.rfl

/-- Row `r` of the output lies in the block of point `r / 5000`, which is written back. -/
theorem cover (i : S500000x64.Idx) :
    ∃ t : Fin cfg1.N, (cfg1.win 6).flush t = true ∧ i ∈ ((cfg1.win 6).blk t).view.set := by
  have hi0 : (i 0).val < 500000 := (i 0).isLt
  have hi1 : (i 1).val < 64 := (i 1).isLt
  have hN : cfg1.N = 100 := N_1
  have ht : (i 0).val / 5000 < cfg1.N := by rw [hN]; omega
  obtain ⟨e0, e1⟩ := idx6 ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]; omega

/-- The output array after the update: the perceptron of the rows of the two inputs' sum, clipped below at zero. -/
theorem final (V : (c : Dev nD) → (b : Ref sig .tc) → Buf (Elt Ideal) ((c : Thread nD τ).loc b)) (c : Dev nD) :
    (Gen.dat1 (F := Ideal) V c).arrAt 6 cfg1.N
      = Cert.Gine.relu (Cert.Gine.mlp 500000 44 64 64 (V c main_arg0) (V c main_v20) (V c main_arg6) (V c main_v21) (V c main_arg8) (V c main_v22)) :=
  (dat1 V c).arrAt_eq_of_cover 6 _ (fun t _ => flushed_eq V c t) cover

end Cert.KernelIdeal.NodeMlp1

end
-- ==== Proof.NodeMlp3.lean ====
/-
  The value of the second node update: after its grid has run, the output array holds, at every row and column, the
  two-layer perceptron of the row of the two input arrays' sum — whatever the arrays held when
  the update began. The payload of one grid point is read at an index (two matrix products into a zero accumulator, a
  bias row broadcast over the rows, a clip at zero); each block a grid point reads is the matching rows of its array
  (the weights and biases are read whole at every point); the blocks of 5000 rows the points write tile the 500000 rows.
-/
import proofs.«127828_j66297115181623_2_alg».proof.Proof.Gen.KernelIdeal.Frame
import proofs.«127828_j66297115181623_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeMlp3

open Cert.KernelIdeal Cert.KernelIdeal.Gen Idealize.ShloMosaic Idealize.ShloMosaic.TcCoe Idealize.ShloMosaic.ValueIdx Idealize.SL.Sem
open Idealize.ShloMosaic.Pipeline (Dat)

/-! ## The payload at an index -/

theorem lhsA_0 (i : S5000x128.Idx) (k : dot_S5000x64_S64x128_S5000x128_1_0_0_1_n_n.contr.Idx) :
    (dot_S5000x64_S64x128_S5000x128_1_0_0_1_n_n.lhsIdx i k 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl

theorem rhsA_1 (i : S5000x128.Idx) (k : dot_S5000x64_S64x128_S5000x128_1_0_0_1_n_n.contr.Idx) :
    (dot_S5000x64_S64x128_S5000x128_1_0_0_1_n_n.rhsIdx i k 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A matrix product into the zero accumulator, read at row `p` and column `q`: the sum over the contracted axis of the
    products of the left operand's row and the right operand's column. -/
theorem matmulA_apply (a : FVec Ideal S5000x64 .bf16) (w : FVec Ideal S64x128 .bf16) (p : Fin 5000) (q : Fin 128) :
    matmul dot_S5000x64_S64x128_S5000x128_1_0_0_1_n_n none a w (constant S5000x128 .f32 0x00000000#32) (ix2 p q)
      = ∑ l : Fin 64, a (ix2 p l) * w (ix2 l q) := by
  refine (Ideal.matmul_constant_zero_apply dot_S5000x64_S64x128_S5000x128_1_0_0_1_n_n none a w (ix2 p q)).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhsA_0 _ _
    | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (dot_S5000x64_S64x128_S5000x128_1_0_0_1_n_n.rhsIdx_val_of_single rfl _ _).trans hk
    | ⟨1, _⟩ => exact rhsA_1 _ _)
  rw [el, er]

theorem lhsB_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhsB_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into the zero accumulator, read at row `p` and column `q`: the sum over the contracted axis of the
    products of the left operand's row and the right operand's column. -/
theorem matmulB_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ l : Fin 128, a (ix2 p l) * w (ix2 l q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsB_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhsB_1 _ _)
  rw [el, er]

/-- The zero the clip compares with. -/
theorem ofBits_zero : (FloatOps.ofBits (F := Ideal) .f32 0x00000000#32 : Ideal .f32) = 0 := Ideal.ofBits_zero_f32

/-- The node update's payload at row `p` and column `q` of a block: the row of `x0 + x1` through the first affine map,
    clipped at zero, through the second affine map. -/
theorem pay_apply (x0 x1 : Vec Ideal S5000x64 .f32) (wa : Vec Ideal S64x128 .f32) (ba : Vec Ideal S1x128 .f32) (wb : Vec Ideal S128x128 .f32) (bb : Vec Ideal S1x128 .f32) (p : Fin 5000) (q : Fin 128) :
    k3_pay1 x0 x1 wa ba wb bb (ix2 p q) = (∑ κ : Fin 128, max ((∑ l : Fin 64, (x0 (ix2 p l) + x1 (ix2 p l)) * wa (ix2 l κ)) + ba (ix2 (0 : Fin 1) κ)) 0 * wb (ix2 κ q)) + bb (ix2 (0 : Fin 1) q) := by
  unfold k3_pay1
  simp only [shapeCast_self]
  refine (addf_apply _ _ _).trans ?_
  refine congrArg₂ (· + ·) ?_ (ValueIdx.broadcastTo_1b_ab_apply bb _ p q)
  refine (matmulB_apply _ _ p q).trans ?_
  refine Finset.sum_congr rfl fun κ _ => ?_
  refine congrArg₂ (· * ·) ?_ rfl
  refine (maximumf_apply _ _ _).trans ?_
  refine congrArg₂ max ?_ ofBits_zero
  refine (addf_apply _ _ _).trans ?_
  refine congrArg₂ (· + ·) ?_ (ValueIdx.broadcastTo_1b_ab_apply ba _ p κ)
  exact matmulA_apply _ _ p κ

/-! ## The blocks a grid point reads and writes -/

theorem hz : (![0, 0] : Fin 2 → Nat) = fun _ => 0 := funext fun a => by fin_cases a <;> rfl

/-! The block index of every window at every one of the 100 grid points, decided: the two row-blocked inputs and the
    output sit at block `t` of the rows at point `t`; the weights and biases at block 0. -/

theorem idx0 : ∀ t : Fin cfg3.N, win3_0.index t (0 : Fin 2) = t.val ∧ win3_0.index t (1 : Fin 2) = 0 :=
  (by decide +kernel : ∀ t : Fin grid3.N, _)

theorem idx1 : ∀ t : Fin cfg3.N, win3_1.index t (0 : Fin 2) = t.val ∧ win3_1.index t (1 : Fin 2) = 0 :=
  (by decide +kernel : ∀ t : Fin grid3.N, _)

theorem idx2 : ∀ t : Fin cfg3.N, win3_2.index t (0 : Fin 2) = 0 ∧ win3_2.index t (1 : Fin 2) = 0 :=
  (by decide +kernel : ∀ t : Fin grid3.N, _)

theorem idx3 : ∀ t : Fin cfg3.N, win3_3.index t (0 : Fin 2) = 0 ∧ win3_3.index t (1 : Fin 2) = 0 :=
  (by decide +kernel : ∀ t : Fin grid3.N, _)

theorem idx4 : ∀ t : Fin cfg3.N, win3_4.index t (0 : Fin 2) = 0 ∧ win3_4.index t (1 : Fin 2) = 0 :=
  (by decide +kernel : ∀ t : Fin grid3.N, _)

theorem idx5 : ∀ t : Fin cfg3.N, win3_5.index t (0 : Fin 2) = 0 ∧ win3_5.index t (1 : Fin 2) = 0 :=
  (by decide +kernel : ∀ t : Fin grid3.N, _)

theorem idx6 : ∀ t : Fin cfg3.N, win3_6.index t (0 : Fin 2) = t.val ∧ win3_6.index t (1 : Fin 2) = 0 :=
  (by decide +kernel : ∀ t : Fin grid3.N, _)

theorem point_lt (t : Fin cfg3.N) : t.val < 100 := lt_of_lt_of_eq t.isLt N_3

/-- The first input's block at point `t` is rows `5000 t … 5000 t + 4999` of its array. -/
theorem blk0_apply (V : (c : Dev nD) → (b : Ref sig .tc) → Buf (Elt Ideal) ((c : Thread nD τ).loc b)) (c : Dev nD) (t : Fin cfg3.N) (p : Fin 5000) (l : Fin 64) (h : t.val * 5000 + p.val < 500000) :
    (iblk3 (F := Ideal) V c 0 t : Vec Ideal S5000x64 .f32) (ix2 p l)
      = (V c main_v23 : S500000x64.Idx → Elt Ideal .f32) (ix2 ⟨t.val * 5000 + p.val, h⟩ l) := by
  obtain ⟨e0, e1⟩ := idx0 t
  unfold iblk3
  rw [View.read_apply]
  show V c main_v23 _ = V c main_v23 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 64 + 1 * l.val = l.val; rw [e1]; omega

/-- The second input's block at point `t` is the same rows of its array. -/
theorem blk1_apply (V : (c : Dev nD) → (b : Ref sig .tc) → Buf (Elt Ideal) ((c : Thread nD τ).loc b)) (c : Dev nD) (t : Fin cfg3.N) (p : Fin 5000) (l : Fin 64) (h : t.val * 5000 + p.val < 500000) :
    (iblk3 (F := Ideal) V c 1 t : Vec Ideal S5000x64 .f32) (ix2 p l)
      = (V c main_v40 : S500000x64.Idx → Elt Ideal .f32) (ix2 ⟨t.val * 5000 + p.val, h⟩ l) := by
  obtain ⟨e0, e1⟩ := idx1 t
  unfold iblk3
  rw [View.read_apply]
  show V c main_v40 _ = V c main_v40 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 64 + 1 * l.val = l.val; rw [e1]; omega

/-- The first weight matrix is read whole at every point. -/
theorem blk2_apply (V : (c : Dev nD) → (b : Ref sig .tc) → Buf (Elt Ideal) ((c : Thread nD τ).loc b)) (c : Dev nD) (t : Fin cfg3.N) (l : Fin 64) (κ : Fin 128) :
    (iblk3 (F := Ideal) V c 2 t : Vec Ideal S64x128 .f32) (ix2 l κ)
      = (V c main_arg12 : S64x128.Idx → Elt Ideal .f32) (ix2 l κ) := by
  obtain ⟨e0, e1⟩ := idx2 t
  unfold iblk3
  rw [View.read_apply]
  show V c main_arg12 _ = V c main_arg12 _
  congr 1
  funext a
  apply Fin.ext
  match a with
  | ⟨0, _⟩ => show win3_2.index t (0 : Fin 2) * 64 + 1 * l.val = l.val; rw [e0]; omega
  | ⟨1, _⟩ => show win3_2.index t (1 : Fin 2) * 128 + 1 * κ.val = κ.val; rw [e1]; omega

/-- The first bias row is read whole at every point. -/
theorem blk3_apply (V : (c : Dev nD) → (b : Ref sig .tc) → Buf (Elt Ideal) ((c : Thread nD τ).loc b)) (c : Dev nD) (t : Fin cfg3.N) (u : Fin 1) (κ : Fin 128) :
    (iblk3 (F := Ideal) V c 3 t : Vec Ideal S1x128 .f32) (ix2 u κ)
      = (V c main_v41 : S1x128.Idx → Elt Ideal .f32) (ix2 u κ) := by
  obtain ⟨e0, e1⟩ := idx3 t
  unfold iblk3
  rw [View.read_apply]
  show V c main_v41 _ = V c main_v41 _
  congr 1
  funext a
  apply Fin.ext
  match a with
  | ⟨0, _⟩ => show win3_3.index t (0 : Fin 2) * 1 + 1 * u.val = u.val; rw [e0]; omega
  | ⟨1, _⟩ => show win3_3.index t (1 : Fin 2) * 128 + 1 * κ.val = κ.val; rw [e1]; omega

/-- The second weight matrix is read whole at every point. -/
theorem blk4_apply (V : (c : Dev nD) → (b : Ref sig .tc) → Buf (Elt Ideal) ((c : Thread nD τ).loc b)) (c : Dev nD) (t : Fin cfg3.N) (κ : Fin 128) (q : Fin 128) :
    (iblk3 (F := Ideal) V c 4 t : Vec Ideal S128x128 .f32) (ix2 κ q)
      = (V c main_arg14 : S128x128.Idx → Elt Ideal .f32) (ix2 κ q) := by
  obtain ⟨e0, e1⟩ := idx4 t
  unfold iblk3
  rw [View.read_apply]
  show V c main_arg14 _ = V c main_arg14 _
  congr 1
  funext a
  apply Fin.ext
  match a with
  | ⟨0, _⟩ => show win3_4.index t (0 : Fin 2) * 128 + 1 * κ.val = κ.val; rw [e0]; omega
  | ⟨1, _⟩ => show win3_4.index t (1 : Fin 2) * 128 + 1 * q.val = q.val; rw [e1]; omega

/-- The second bias row is read whole at every point. -/
theorem blk5_apply (V : (c : Dev nD) → (b : Ref sig .tc) → Buf (Elt Ideal) ((c : Thread nD τ).loc b)) (c : Dev nD) (t : Fin cfg3.N) (u : Fin 1) (q : Fin 128) :
    (iblk3 (F := Ideal) V c 5 t : Vec Ideal S1x128 .f32) (ix2 u q)
      = (V c main_v42 : S1x128.Idx → Elt Ideal .f32) (ix2 u q) := by
  obtain ⟨e0, e1⟩ := idx5 t
  unfold iblk3
  rw [View.read_apply]
  show V c main_v42 _ = V c main_v42 _
  congr 1
  funext a
  apply Fin.ext
  match a with
  | ⟨0, _⟩ => show win3_5.index t (0 : Fin 2) * 1 + 1 * u.val = u.val; rw [e0]; omega
  | ⟨1, _⟩ => show win3_5.index t (1 : Fin 2) * 128 + 1 * q.val = q.val; rw [e1]; omega

/-- What point `t` writes back is block `t` of the perceptron of the arrays as the update finds them. -/
theorem flushed_eq (V : (c : Dev nD) → (b : Ref sig .tc) → Buf (Elt Ideal) ((c : Thread nD τ).loc b)) (c : Dev nD) (t : Fin cfg3.N) :
    (dat3 (F := Ideal) V c).flushed 6 t = ((cfg3.win 6).blk t).view.read (Elt Ideal)
      (Cert.Gine.mlp 500000 64 128 128 (V c main_v23) (V c main_v40) (V c main_arg12) (V c main_v41) (V c main_arg14) (V c main_v42)) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x128) hz, View.ld_unit_zero (S := S1x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht := point_lt t
  have h : t.val * 5000 + p.val < 500000 := by have := p.isLt; omega
  obtain ⟨e0, e1⟩ := idx6 t
  have hemb : ((cfg3.win 6).blk t).view.emb (ix2 p q) = (ix2 ⟨t.val * 5000 + p.val, h⟩ q : S500000x128.Idx) := by
    funext a
    apply Fin.ext
    match a with
    | ⟨0, _⟩ => show win3_6.index t (0 : Fin 2) * 5000 + 1 * p.val = t.val * 5000 + p.val; rw [e0]; omega
    | ⟨1, _⟩ => show win3_6.index t (1 : Fin 2) * 128 + 1 * q.val = q.val; rw [e1]; omega
  show k3_pay1 (iblk3 V c 0 t) (iblk3 V c 1 t) (iblk3 V c 2 t) (iblk3 V c 3 t) (iblk3 V c 4 t) (iblk3 V c 5 t) (ix2 p q)
    = (Cert.Gine.mlp 500000 64 128 128 (V c main_v23) (V c main_v40) (V c main_arg12) (V c main_v41) (V c main_arg14) (V c main_v42)) (((cfg3.win 6).blk t).view.emb (ix2 p q))
  rw [hemb]
  refine (pay_apply _ _ _ _ _ _ p q).trans ?_
  exact (congrArg₂ (· + ·)
    (Finset.sum_congr rfl fun κ _ => congrArg₂ (· * ·)
      (congrArg₂ max (congrArg₂ (· + ·)
        (Finset.sum_congr rfl fun l _ => congrArg₂ (· * ·)
          (congrArg₂ (· + ·) (blk0_apply V c t p l h) (blk1_apply V c t p l h)) (blk2_apply V c t l κ))
        (blk3_apply V c t (0 : Fin 1) κ)) rfl)
      (blk4_apply V c t κ q))
    (blk5_apply V c t (0 : Fin 1) q))

/-! ## From the blocks to the array -/

/-- An index of the output array is in point `t`'s block iff each coordinate is in the block's range on its axis. -/
theorem mem_blk (t : Fin cfg3.N) (i : S500000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v43).slice (win3_6.rect t)).set ↔ _
  rw [View.set_slice_whole, Rect.mem_set_unit]
  exact Iff.rfl

/-- Row `r` of the output lies in the block of point `r / 5000`, which is written back. -/
theorem cover (i : S500000x128.Idx) :
    ∃ t : Fin cfg3.N, (cfg3.win 6).flush t = true ∧ i ∈ ((cfg3.win 6).blk t).view.set := by
  have hi0 : (i 0).val < 500000 := (i 0).isLt
  have hi1 : (i 1).val < 128 := (i 1).isLt
  have hN : cfg3.N = 100 := N_3
  have ht : (i 0).val / 5000 < cfg3.N := by rw [hN]; omega
  obtain ⟨e0, e1⟩ := idx6 ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]; omega

/-- The output array after the update: the perceptron of the rows of the two inputs' sum. -/
theorem final (V : (c : Dev nD) → (b : Ref sig .tc) → Buf (Elt Ideal) ((c : Thread nD τ).loc b)) (c : Dev nD) :
    (Gen.dat3 (F := Ideal) V c).arrAt 6 cfg3.N
      = Cert.Gine.mlp 500000 64 128 128 (V c main_v23) (V c main_v40) (V c main_arg12) (V c main_v41) (V c main_arg14) (V c main_v42) :=
  (dat3 V c).arrAt_eq_of_cover 6 _ (fun t _ => flushed_eq V c t) cover

end Cert.KernelIdeal.NodeMlp3

end
-- ==== Proof.Chain.lean ====
/-
  The kernel program's result buffer at the return, as one function of the launch memory. The contents of the buffers
  are followed from one stretch of the program to the next: a stretch of host operations writes each of its results as
  the operation's function of what its operands held, and keeps every other buffer; a pipelined region writes its
  output array — the affine map of every edge, or the perceptron of every node — and keeps every other buffer, its
  input arrays included. Read at the result buffer, the last contents are the whole network `Whole.out` of the sixteen
  argument arrays.
-/
import proofs.«127828_j66297115181623_2_alg».proof.Proof.Gen.KernelIdeal.Frame
import proofs.«127828_j66297115181623_2_alg».proof.Proof.KSpec
import proofs.«127828_j66297115181623_2_alg».proof.Proof.EdgeLin0
import proofs.«127828_j66297115181623_2_alg».proof.Proof.EdgeLin2
import proofs.«127828_j66297115181623_2_alg».proof.Proof.NodeMlp1
import proofs.«127828_j66297115181623_2_alg».proof.Proof.NodeMlp3
import Idealize.ShloMosaic.Lib.StableHlo.Run

set_option maxRecDepth 16384

noncomputable section

namespace Cert.KernelIdeal.Chain

open Cert.KernelIdeal Cert.KernelIdeal.Gen Cert.KernelIdeal.Whole
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The argument arrays as launched -/

abbrev A0 : (⟨S500000x44, .f32⟩ : BufTy).Contents (Elt Ideal) := m ((c : Thread nD τ).loc main_arg0)
abbrev A1 : (⟨S2000000x12, .f32⟩ : BufTy).Contents (Elt Ideal) := m ((c : Thread nD τ).loc main_arg1)
abbrev A2 : (⟨S2x2000000, .i32⟩ : BufTy).Contents (Elt Ideal) := m ((c : Thread nD τ).loc main_arg2)
abbrev A3 : (⟨S500000, .i32⟩ : BufTy).Contents (Elt Ideal) := m ((c : Thread nD τ).loc main_arg3)
abbrev A4 : (⟨S12x44, .f32⟩ : BufTy).Contents (Elt Ideal) := m ((c : Thread nD τ).loc main_arg4)
abbrev A5 : (⟨S44, .f32⟩ : BufTy).Contents (Elt Ideal) := m ((c : Thread nD τ).loc main_arg5)
abbrev A6 : (⟨S44x64, .f32⟩ : BufTy).Contents (Elt Ideal) := m ((c : Thread nD τ).loc main_arg6)
abbrev A7 : (⟨S64, .f32⟩ : BufTy).Contents (Elt Ideal) := m ((c : Thread nD τ).loc main_arg7)
abbrev A8 : (⟨S64x64, .f32⟩ : BufTy).Contents (Elt Ideal) := m ((c : Thread nD τ).loc main_arg8)
abbrev A9 : (⟨S64, .f32⟩ : BufTy).Contents (Elt Ideal) := m ((c : Thread nD τ).loc main_arg9)
abbrev A10 : (⟨S12x64, .f32⟩ : BufTy).Contents (Elt Ideal) := m ((c : Thread nD τ).loc main_arg10)
abbrev A11 : (⟨S64, .f32⟩ : BufTy).Contents (Elt Ideal) := m ((c : Thread nD τ).loc main_arg11)
abbrev A12 : (⟨S64x128, .f32⟩ : BufTy).Contents (Elt Ideal) := m ((c : Thread nD τ).loc main_arg12)
abbrev A13 : (⟨S128, .f32⟩ : BufTy).Contents (Elt Ideal) := m ((c : Thread nD τ).loc main_arg13)
abbrev A14 : (⟨S128x128, .f32⟩ : BufTy).Contents (Elt Ideal) := m ((c : Thread nD τ).loc main_arg14)
abbrev A15 : (⟨S128, .f32⟩ : BufTy).Contents (Elt Ideal) := m ((c : Thread nD τ).loc main_arg15)

/-! ## The contents after the host operations hostOps0 -/

theorem w1_v1 : W1 m ρ c (Proc.devRef .tc main_v1) = srcRaw (A2 m c) := by
  show (StableHlo.after hostOps0 (W0 m ρ c)) (Proc.devRef .tc main_v1) = _
  dsimp only [hostOps0]
  after_results
  first | done | rfl
theorem w1_v3 : W1 m ρ c (Proc.devRef .tc main_v3) = dstRaw (A2 m c) := by
  show (StableHlo.after hostOps0 (W0 m ρ c)) (Proc.devRef .tc main_v3) = _
  dsimp only [hostOps0]
  after_results
  first | done | rfl
theorem w1_v4 : W1 m ρ c (Proc.devRef .tc main_v4) = shapeCast S1x44 (A5 m c) shapeCasts_S44_S1x44 := by
  show (StableHlo.after hostOps0 (W0 m ρ c)) (Proc.devRef .tc main_v4) = _
  dsimp only [hostOps0]
  after_results
  first | done | rfl
theorem w1_arg0 : W1 m ρ c (Proc.devRef .tc main_arg0) = A0 m c := by
  show (StableHlo.after hostOps0 (W0 m ρ c)) (Proc.devRef .tc main_arg0) = _
  dsimp only [hostOps0]
  after_results
  first | done | rfl
theorem w1_arg1 : W1 m ρ c (Proc.devRef .tc main_arg1) = A1 m c := by
  show (StableHlo.after hostOps0 (W0 m ρ c)) (Proc.devRef .tc main_arg1) = _
  dsimp only [hostOps0]
  after_results
  first | done | rfl
theorem w1_arg3 : W1 m ρ c (Proc.devRef .tc main_arg3) = A3 m c := by
  show (StableHlo.after hostOps0 (W0 m ρ c)) (Proc.devRef .tc main_arg3) = _
  dsimp only [hostOps0]
  after_results
  first | done | rfl
theorem w1_arg4 : W1 m ρ c (Proc.devRef .tc main_arg4) = A4 m c := by
  show (StableHlo.after hostOps0 (W0 m ρ c)) (Proc.devRef .tc main_arg4) = _
  dsimp only [hostOps0]
  after_results
  first | done | rfl
theorem w1_arg6 : W1 m ρ c (Proc.devRef .tc main_arg6) = A6 m c := by
  show (StableHlo.after hostOps0 (W0 m ρ c)) (Proc.devRef .tc main_arg6) = _
  dsimp only [hostOps0]
  after_results
  first | done | rfl
theorem w1_arg7 : W1 m ρ c (Proc.devRef .tc main_arg7) = A7 m c := by
  show (StableHlo.after hostOps0 (W0 m ρ c)) (Proc.devRef .tc main_arg7) = _
  dsimp only [hostOps0]
  after_results
  first | done | rfl
theorem w1_arg8 : W1 m ρ c (Proc.devRef .tc main_arg8) = A8 m c := by
  show (StableHlo.after hostOps0 (W0 m ρ c)) (Proc.devRef .tc main_arg8) = _
  dsimp only [hostOps0]
  after_results
  first | done | rfl
theorem w1_arg9 : W1 m ρ c (Proc.devRef .tc main_arg9) = A9 m c := by
  show (StableHlo.after hostOps0 (W0 m ρ c)) (Proc.devRef .tc main_arg9) = _
  dsimp only [hostOps0]
  after_results
  first | done | rfl
theorem w1_arg10 : W1 m ρ c (Proc.devRef .tc main_arg10) = A10 m c := by
  show (StableHlo.after hostOps0 (W0 m ρ c)) (Proc.devRef .tc main_arg10) = _
  dsimp only [hostOps0]
  after_results
  first | done | rfl
theorem w1_arg11 : W1 m ρ c (Proc.devRef .tc main_arg11) = A11 m c := by
  show (StableHlo.after hostOps0 (W0 m ρ c)) (Proc.devRef .tc main_arg11) = _
  dsimp only [hostOps0]
  after_results
  first | done | rfl
theorem w1_arg12 : W1 m ρ c (Proc.devRef .tc main_arg12) = A12 m c := by
  show (StableHlo.after hostOps0 (W0 m ρ c)) (Proc.devRef .tc main_arg12) = _
  dsimp only [hostOps0]
  after_results
  first | done | rfl
theorem w1_arg13 : W1 m ρ c (Proc.devRef .tc main_arg13) = A13 m c := by
  show (StableHlo.after hostOps0 (W0 m ρ c)) (Proc.devRef .tc main_arg13) = _
  dsimp only [hostOps0]
  after_results
  first | done | rfl
theorem w1_arg14 : W1 m ρ c (Proc.devRef .tc main_arg14) = A14 m c := by
  show (StableHlo.after hostOps0 (W0 m ρ c)) (Proc.devRef .tc main_arg14) = _
  dsimp only [hostOps0]
  after_results
  first | done | rfl
theorem w1_arg15 : W1 m ρ c (Proc.devRef .tc main_arg15) = A15 m c := by
  show (StableHlo.after hostOps0 (W0 m ρ c)) (Proc.devRef .tc main_arg15) = _
  dsimp only [hostOps0]
  after_results
  first | done | rfl

/-! ## The contents after region 0 -/

theorem w2_v5 : W2 m ρ c (Proc.devRef .tc main_v5) = lin1 (A1 m c) (A4 m c) (A5 m c) :=
  (W2_arr m ρ c 3).trans ((Cert.KernelIdeal.EdgeLin0.final (V1 m ρ) c).trans (by
    show Cert.Gine.affine 2000000 12 44 (W1 m ρ c (Proc.devRef .tc main_arg1)) (W1 m ρ c (Proc.devRef .tc main_arg4)) (W1 m ρ c (Proc.devRef .tc main_v4)) = _
    rw [w1_arg1 m ρ c, w1_arg4 m ρ c, w1_v4 m ρ c]
    rfl))
theorem w2_v1 : W2 m ρ c (Proc.devRef .tc main_v1) = srcRaw (A2 m c) :=
  (W2_of_ne m ρ c main_v1 (by decide)).trans (w1_v1 m ρ c)
theorem w2_v3 : W2 m ρ c (Proc.devRef .tc main_v3) = dstRaw (A2 m c) :=
  (W2_of_ne m ρ c main_v3 (by decide)).trans (w1_v3 m ρ c)
theorem w2_arg0 : W2 m ρ c (Proc.devRef .tc main_arg0) = A0 m c :=
  (W2_of_ne m ρ c main_arg0 (by decide)).trans (w1_arg0 m ρ c)
theorem w2_arg1 : W2 m ρ c (Proc.devRef .tc main_arg1) = A1 m c :=
  (W2_arr m ρ c 0).trans (((dat0 (V1 m ρ) c).arrAt_in 0 rfl _).trans ((A_eq0 (V1 m ρ) c 0).trans (w1_arg1 m ρ c)))
theorem w2_arg3 : W2 m ρ c (Proc.devRef .tc main_arg3) = A3 m c :=
  (W2_of_ne m ρ c main_arg3 (by decide)).trans (w1_arg3 m ρ c)
theorem w2_arg6 : W2 m ρ c (Proc.devRef .tc main_arg6) = A6 m c :=
  (W2_of_ne m ρ c main_arg6 (by decide)).trans (w1_arg6 m ρ c)
theorem w2_arg7 : W2 m ρ c (Proc.devRef .tc main_arg7) = A7 m c :=
  (W2_of_ne m ρ c main_arg7 (by decide)).trans (w1_arg7 m ρ c)
theorem w2_arg8 : W2 m ρ c (Proc.devRef .tc main_arg8) = A8 m c :=
  (W2_of_ne m ρ c main_arg8 (by decide)).trans (w1_arg8 m ρ c)
theorem w2_arg9 : W2 m ρ c (Proc.devRef .tc main_arg9) = A9 m c :=
  (W2_of_ne m ρ c main_arg9 (by decide)).trans (w1_arg9 m ρ c)
theorem w2_arg10 : W2 m ρ c (Proc.devRef .tc main_arg10) = A10 m c :=
  (W2_of_ne m ρ c main_arg10 (by decide)).trans (w1_arg10 m ρ c)
theorem w2_arg11 : W2 m ρ c (Proc.devRef .tc main_arg11) = A11 m c :=
  (W2_of_ne m ρ c main_arg11 (by decide)).trans (w1_arg11 m ρ c)
theorem w2_arg12 : W2 m ρ c (Proc.devRef .tc main_arg12) = A12 m c :=
  (W2_of_ne m ρ c main_arg12 (by decide)).trans (w1_arg12 m ρ c)
theorem w2_arg13 : W2 m ρ c (Proc.devRef .tc main_arg13) = A13 m c :=
  (W2_of_ne m ρ c main_arg13 (by decide)).trans (w1_arg13 m ρ c)
theorem w2_arg14 : W2 m ρ c (Proc.devRef .tc main_arg14) = A14 m c :=
  (W2_of_ne m ρ c main_arg14 (by decide)).trans (w1_arg14 m ρ c)
theorem w2_arg15 : W2 m ρ c (Proc.devRef .tc main_arg15) = A15 m c :=
  (W2_of_ne m ρ c main_arg15 (by decide)).trans (w1_arg15 m ρ c)

/-! ## The contents after the host operations hostOps1, hostOps1_1, hostOps1_2 -/

set_option maxHeartbeats 4000000 in
theorem w5_v20 : W5 m ρ c (Proc.devRef .tc main_v20) = agg1 (A0 m c) (A1 m c) (A2 m c) (A4 m c) (A5 m c) := by
  show (StableHlo.after hostOps1_2 (StableHlo.after hostOps1_1 (StableHlo.after hostOps1 (W2 m ρ c)))) (Proc.devRef .tc main_v20) = _
  dsimp only [hostOps1_2, hostOps1_1, hostOps1]
  after_results_simp
  simp only [w2_v3 m ρ c, w2_arg0 m ρ c, w2_v1 m ρ c, w2_v5 m ρ c]
  first | done | rfl
theorem w5_v21 : W5 m ρ c (Proc.devRef .tc main_v21) = shapeCast S1x64 (A7 m c) shapeCasts_S64_S1x64 := by
  show (StableHlo.after hostOps1_2 (StableHlo.after hostOps1_1 (StableHlo.after hostOps1 (W2 m ρ c)))) (Proc.devRef .tc main_v21) = _
  dsimp only [hostOps1_2, hostOps1_1, hostOps1]
  after_results
  simp only [w2_arg7 m ρ c]
  first | done | rfl
theorem w5_v22 : W5 m ρ c (Proc.devRef .tc main_v22) = shapeCast S1x64 (A9 m c) shapeCasts_S64_S1x64 := by
  show (StableHlo.after hostOps1_2 (StableHlo.after hostOps1_1 (StableHlo.after hostOps1 (W2 m ρ c)))) (Proc.devRef .tc main_v22) = _
  dsimp only [hostOps1_2, hostOps1_1, hostOps1]
  after_results
  simp only [w2_arg9 m ρ c]
  first | done | rfl
theorem w5_v1 : W5 m ρ c (Proc.devRef .tc main_v1) = srcRaw (A2 m c) := by
  show (StableHlo.after hostOps1_2 (StableHlo.after hostOps1_1 (StableHlo.after hostOps1 (W2 m ρ c)))) (Proc.devRef .tc main_v1) = _
  dsimp only [hostOps1_2, hostOps1_1, hostOps1]
  after_results
  exact w2_v1 m ρ c
theorem w5_v3 : W5 m ρ c (Proc.devRef .tc main_v3) = dstRaw (A2 m c) := by
  show (StableHlo.after hostOps1_2 (StableHlo.after hostOps1_1 (StableHlo.after hostOps1 (W2 m ρ c)))) (Proc.devRef .tc main_v3) = _
  dsimp only [hostOps1_2, hostOps1_1, hostOps1]
  after_results
  exact w2_v3 m ρ c
theorem w5_arg0 : W5 m ρ c (Proc.devRef .tc main_arg0) = A0 m c := by
  show (StableHlo.after hostOps1_2 (StableHlo.after hostOps1_1 (StableHlo.after hostOps1 (W2 m ρ c)))) (Proc.devRef .tc main_arg0) = _
  dsimp only [hostOps1_2, hostOps1_1, hostOps1]
  after_results
  exact w2_arg0 m ρ c
theorem w5_arg6 : W5 m ρ c (Proc.devRef .tc main_arg6) = A6 m c := by
  show (StableHlo.after hostOps1_2 (StableHlo.after hostOps1_1 (StableHlo.after hostOps1 (W2 m ρ c)))) (Proc.devRef .tc main_arg6) = _
  dsimp only [hostOps1_2, hostOps1_1, hostOps1]
  after_results
  exact w2_arg6 m ρ c
theorem w5_arg8 : W5 m ρ c (Proc.devRef .tc main_arg8) = A8 m c := by
  show (StableHlo.after hostOps1_2 (StableHlo.after hostOps1_1 (StableHlo.after hostOps1 (W2 m ρ c)))) (Proc.devRef .tc main_arg8) = _
  dsimp only [hostOps1_2, hostOps1_1, hostOps1]
  after_results
  exact w2_arg8 m ρ c
theorem w5_arg1 : W5 m ρ c (Proc.devRef .tc main_arg1) = A1 m c := by
  show (StableHlo.after hostOps1_2 (StableHlo.after hostOps1_1 (StableHlo.after hostOps1 (W2 m ρ c)))) (Proc.devRef .tc main_arg1) = _
  dsimp only [hostOps1_2, hostOps1_1, hostOps1]
  after_results
  exact w2_arg1 m ρ c
theorem w5_arg3 : W5 m ρ c (Proc.devRef .tc main_arg3) = A3 m c := by
  show (StableHlo.after hostOps1_2 (StableHlo.after hostOps1_1 (StableHlo.after hostOps1 (W2 m ρ c)))) (Proc.devRef .tc main_arg3) = _
  dsimp only [hostOps1_2, hostOps1_1, hostOps1]
  after_results
  exact w2_arg3 m ρ c
theorem w5_arg10 : W5 m ρ c (Proc.devRef .tc main_arg10) = A10 m c := by
  show (StableHlo.after hostOps1_2 (StableHlo.after hostOps1_1 (StableHlo.after hostOps1 (W2 m ρ c)))) (Proc.devRef .tc main_arg10) = _
  dsimp only [hostOps1_2, hostOps1_1, hostOps1]
  after_results
  exact w2_arg10 m ρ c
theorem w5_arg11 : W5 m ρ c (Proc.devRef .tc main_arg11) = A11 m c := by
  show (StableHlo.after hostOps1_2 (StableHlo.after hostOps1_1 (StableHlo.after hostOps1 (W2 m ρ c)))) (Proc.devRef .tc main_arg11) = _
  dsimp only [hostOps1_2, hostOps1_1, hostOps1]
  after_results
  exact w2_arg11 m ρ c
theorem w5_arg12 : W5 m ρ c (Proc.devRef .tc main_arg12) = A12 m c := by
  show (StableHlo.after hostOps1_2 (StableHlo.after hostOps1_1 (StableHlo.after hostOps1 (W2 m ρ c)))) (Proc.devRef .tc main_arg12) = _
  dsimp only [hostOps1_2, hostOps1_1, hostOps1]
  after_results
  exact w2_arg12 m ρ c
theorem w5_arg13 : W5 m ρ c (Proc.devRef .tc main_arg13) = A13 m c := by
  show (StableHlo.after hostOps1_2 (StableHlo.after hostOps1_1 (StableHlo.after hostOps1 (W2 m ρ c)))) (Proc.devRef .tc main_arg13) = _
  dsimp only [hostOps1_2, hostOps1_1, hostOps1]
  after_results
  exact w2_arg13 m ρ c
theorem w5_arg14 : W5 m ρ c (Proc.devRef .tc main_arg14) = A14 m c := by
  show (StableHlo.after hostOps1_2 (StableHlo.after hostOps1_1 (StableHlo.after hostOps1 (W2 m ρ c)))) (Proc.devRef .tc main_arg14) = _
  dsimp only [hostOps1_2, hostOps1_1, hostOps1]
  after_results
  exact w2_arg14 m ρ c
theorem w5_arg15 : W5 m ρ c (Proc.devRef .tc main_arg15) = A15 m c := by
  show (StableHlo.after hostOps1_2 (StableHlo.after hostOps1_1 (StableHlo.after hostOps1 (W2 m ρ c)))) (Proc.devRef .tc main_arg15) = _
  dsimp only [hostOps1_2, hostOps1_1, hostOps1]
  after_results
  exact w2_arg15 m ρ c

/-! ## The contents after region 1 -/

theorem w6_v23 : W6 m ρ c (Proc.devRef .tc main_v23) = h1 (A0 m c) (A1 m c) (A2 m c) (A4 m c) (A5 m c) (A6 m c) (A7 m c) (A8 m c) (A9 m c) :=
  (W6_arr m ρ c 6).trans ((Cert.KernelIdeal.NodeMlp1.final (V5 m ρ) c).trans (by
    show Cert.Gine.relu (Cert.Gine.mlp 500000 44 64 64 (W5 m ρ c (Proc.devRef .tc main_arg0)) (W5 m ρ c (Proc.devRef .tc main_v20)) (W5 m ρ c (Proc.devRef .tc main_arg6)) (W5 m ρ c (Proc.devRef .tc main_v21)) (W5 m ρ c (Proc.devRef .tc main_arg8)) (W5 m ρ c (Proc.devRef .tc main_v22))) = _
    rw [w5_arg0 m ρ c, w5_v20 m ρ c, w5_arg6 m ρ c, w5_v21 m ρ c, w5_arg8 m ρ c, w5_v22 m ρ c]
    rfl))
theorem w6_v1 : W6 m ρ c (Proc.devRef .tc main_v1) = srcRaw (A2 m c) :=
  (W6_of_ne m ρ c main_v1 (by decide)).trans (w5_v1 m ρ c)
theorem w6_v3 : W6 m ρ c (Proc.devRef .tc main_v3) = dstRaw (A2 m c) :=
  (W6_of_ne m ρ c main_v3 (by decide)).trans (w5_v3 m ρ c)
theorem w6_arg1 : W6 m ρ c (Proc.devRef .tc main_arg1) = A1 m c :=
  (W6_of_ne m ρ c main_arg1 (by decide)).trans (w5_arg1 m ρ c)
theorem w6_arg3 : W6 m ρ c (Proc.devRef .tc main_arg3) = A3 m c :=
  (W6_of_ne m ρ c main_arg3 (by decide)).trans (w5_arg3 m ρ c)
theorem w6_arg10 : W6 m ρ c (Proc.devRef .tc main_arg10) = A10 m c :=
  (W6_of_ne m ρ c main_arg10 (by decide)).trans (w5_arg10 m ρ c)
theorem w6_arg11 : W6 m ρ c (Proc.devRef .tc main_arg11) = A11 m c :=
  (W6_of_ne m ρ c main_arg11 (by decide)).trans (w5_arg11 m ρ c)
theorem w6_arg12 : W6 m ρ c (Proc.devRef .tc main_arg12) = A12 m c :=
  (W6_of_ne m ρ c main_arg12 (by decide)).trans (w5_arg12 m ρ c)
theorem w6_arg13 : W6 m ρ c (Proc.devRef .tc main_arg13) = A13 m c :=
  (W6_of_ne m ρ c main_arg13 (by decide)).trans (w5_arg13 m ρ c)
theorem w6_arg14 : W6 m ρ c (Proc.devRef .tc main_arg14) = A14 m c :=
  (W6_of_ne m ρ c main_arg14 (by decide)).trans (w5_arg14 m ρ c)
theorem w6_arg15 : W6 m ρ c (Proc.devRef .tc main_arg15) = A15 m c :=
  (W6_of_ne m ρ c main_arg15 (by decide)).trans (w5_arg15 m ρ c)

/-! ## The contents after the host operations hostOps2 -/

theorem w7_v24 : W7 m ρ c (Proc.devRef .tc main_v24) = shapeCast S1x64 (A11 m c) shapeCasts_S64_S1x64 := by
  show (StableHlo.after hostOps2 (W6 m ρ c)) (Proc.devRef .tc main_v24) = _
  dsimp only [hostOps2]
  after_results
  simp only [w6_arg11 m ρ c]
  first | done | rfl
theorem w7_v23 : W7 m ρ c (Proc.devRef .tc main_v23) = h1 (A0 m c) (A1 m c) (A2 m c) (A4 m c) (A5 m c) (A6 m c) (A7 m c) (A8 m c) (A9 m c) := by
  show (StableHlo.after hostOps2 (W6 m ρ c)) (Proc.devRef .tc main_v23) = _
  dsimp only [hostOps2]
  after_results
  exact w6_v23 m ρ c
theorem w7_v1 : W7 m ρ c (Proc.devRef .tc main_v1) = srcRaw (A2 m c) := by
  show (StableHlo.after hostOps2 (W6 m ρ c)) (Proc.devRef .tc main_v1) = _
  dsimp only [hostOps2]
  after_results
  exact w6_v1 m ρ c
theorem w7_v3 : W7 m ρ c (Proc.devRef .tc main_v3) = dstRaw (A2 m c) := by
  show (StableHlo.after hostOps2 (W6 m ρ c)) (Proc.devRef .tc main_v3) = _
  dsimp only [hostOps2]
  after_results
  exact w6_v3 m ρ c
theorem w7_arg1 : W7 m ρ c (Proc.devRef .tc main_arg1) = A1 m c := by
  show (StableHlo.after hostOps2 (W6 m ρ c)) (Proc.devRef .tc main_arg1) = _
  dsimp only [hostOps2]
  after_results
  exact w6_arg1 m ρ c
theorem w7_arg3 : W7 m ρ c (Proc.devRef .tc main_arg3) = A3 m c := by
  show (StableHlo.after hostOps2 (W6 m ρ c)) (Proc.devRef .tc main_arg3) = _
  dsimp only [hostOps2]
  after_results
  exact w6_arg3 m ρ c
theorem w7_arg10 : W7 m ρ c (Proc.devRef .tc main_arg10) = A10 m c := by
  show (StableHlo.after hostOps2 (W6 m ρ c)) (Proc.devRef .tc main_arg10) = _
  dsimp only [hostOps2]
  after_results
  exact w6_arg10 m ρ c
theorem w7_arg12 : W7 m ρ c (Proc.devRef .tc main_arg12) = A12 m c := by
  show (StableHlo.after hostOps2 (W6 m ρ c)) (Proc.devRef .tc main_arg12) = _
  dsimp only [hostOps2]
  after_results
  exact w6_arg12 m ρ c
theorem w7_arg13 : W7 m ρ c (Proc.devRef .tc main_arg13) = A13 m c := by
  show (StableHlo.after hostOps2 (W6 m ρ c)) (Proc.devRef .tc main_arg13) = _
  dsimp only [hostOps2]
  after_results
  exact w6_arg13 m ρ c
theorem w7_arg14 : W7 m ρ c (Proc.devRef .tc main_arg14) = A14 m c := by
  show (StableHlo.after hostOps2 (W6 m ρ c)) (Proc.devRef .tc main_arg14) = _
  dsimp only [hostOps2]
  after_results
  exact w6_arg14 m ρ c
theorem w7_arg15 : W7 m ρ c (Proc.devRef .tc main_arg15) = A15 m c := by
  show (StableHlo.after hostOps2 (W6 m ρ c)) (Proc.devRef .tc main_arg15) = _
  dsimp only [hostOps2]
  after_results
  exact w6_arg15 m ρ c

/-! ## The contents after region 2 -/

theorem w8_v25 : W8 m ρ c (Proc.devRef .tc main_v25) = lin2 (A1 m c) (A10 m c) (A11 m c) :=
  (W8_arr m ρ c 3).trans ((Cert.KernelIdeal.EdgeLin2.final (V7 m ρ) c).trans (by
    show Cert.Gine.affine 2000000 12 64 (W7 m ρ c (Proc.devRef .tc main_arg1)) (W7 m ρ c (Proc.devRef .tc main_arg10)) (W7 m ρ c (Proc.devRef .tc main_v24)) = _
    rw [w7_arg1 m ρ c, w7_arg10 m ρ c, w7_v24 m ρ c]
    rfl))
theorem w8_v23 : W8 m ρ c (Proc.devRef .tc main_v23) = h1 (A0 m c) (A1 m c) (A2 m c) (A4 m c) (A5 m c) (A6 m c) (A7 m c) (A8 m c) (A9 m c) :=
  (W8_of_ne m ρ c main_v23 (by decide)).trans (w7_v23 m ρ c)
theorem w8_v1 : W8 m ρ c (Proc.devRef .tc main_v1) = srcRaw (A2 m c) :=
  (W8_of_ne m ρ c main_v1 (by decide)).trans (w7_v1 m ρ c)
theorem w8_v3 : W8 m ρ c (Proc.devRef .tc main_v3) = dstRaw (A2 m c) :=
  (W8_of_ne m ρ c main_v3 (by decide)).trans (w7_v3 m ρ c)
theorem w8_arg3 : W8 m ρ c (Proc.devRef .tc main_arg3) = A3 m c :=
  (W8_of_ne m ρ c main_arg3 (by decide)).trans (w7_arg3 m ρ c)
theorem w8_arg12 : W8 m ρ c (Proc.devRef .tc main_arg12) = A12 m c :=
  (W8_of_ne m ρ c main_arg12 (by decide)).trans (w7_arg12 m ρ c)
theorem w8_arg13 : W8 m ρ c (Proc.devRef .tc main_arg13) = A13 m c :=
  (W8_of_ne m ρ c main_arg13 (by decide)).trans (w7_arg13 m ρ c)
theorem w8_arg14 : W8 m ρ c (Proc.devRef .tc main_arg14) = A14 m c :=
  (W8_of_ne m ρ c main_arg14 (by decide)).trans (w7_arg14 m ρ c)
theorem w8_arg15 : W8 m ρ c (Proc.devRef .tc main_arg15) = A15 m c :=
  (W8_of_ne m ρ c main_arg15 (by decide)).trans (w7_arg15 m ρ c)

/-! ## The contents after the host operations hostOps3, hostOps3_1, hostOps3_2 -/

set_option maxHeartbeats 4000000 in
theorem w11_v40 : W11 m ρ c (Proc.devRef .tc main_v40) = agg2 (A0 m c) (A1 m c) (A2 m c) (A4 m c) (A5 m c) (A6 m c) (A7 m c) (A8 m c) (A9 m c) (A10 m c) (A11 m c) := by
  show (StableHlo.after hostOps3_2 (StableHlo.after hostOps3_1 (StableHlo.after hostOps3 (W8 m ρ c)))) (Proc.devRef .tc main_v40) = _
  dsimp only [hostOps3_2, hostOps3_1, hostOps3]
  after_results_simp
  simp only [w8_v3 m ρ c, w8_v23 m ρ c, w8_v1 m ρ c, w8_v25 m ρ c]
  first | done | rfl
theorem w11_v41 : W11 m ρ c (Proc.devRef .tc main_v41) = shapeCast S1x128 (A13 m c) shapeCasts_S128_S1x128 := by
  show (StableHlo.after hostOps3_2 (StableHlo.after hostOps3_1 (StableHlo.after hostOps3 (W8 m ρ c)))) (Proc.devRef .tc main_v41) = _
  dsimp only [hostOps3_2, hostOps3_1, hostOps3]
  after_results
  simp only [w8_arg13 m ρ c]
  first | done | rfl
theorem w11_v42 : W11 m ρ c (Proc.devRef .tc main_v42) = shapeCast S1x128 (A15 m c) shapeCasts_S128_S1x128 := by
  show (StableHlo.after hostOps3_2 (StableHlo.after hostOps3_1 (StableHlo.after hostOps3 (W8 m ρ c)))) (Proc.devRef .tc main_v42) = _
  dsimp only [hostOps3_2, hostOps3_1, hostOps3]
  after_results
  simp only [w8_arg15 m ρ c]
  first | done | rfl
theorem w11_v23 : W11 m ρ c (Proc.devRef .tc main_v23) = h1 (A0 m c) (A1 m c) (A2 m c) (A4 m c) (A5 m c) (A6 m c) (A7 m c) (A8 m c) (A9 m c) := by
  show (StableHlo.after hostOps3_2 (StableHlo.after hostOps3_1 (StableHlo.after hostOps3 (W8 m ρ c)))) (Proc.devRef .tc main_v23) = _
  dsimp only [hostOps3_2, hostOps3_1, hostOps3]
  after_results
  exact w8_v23 m ρ c
theorem w11_arg3 : W11 m ρ c (Proc.devRef .tc main_arg3) = A3 m c := by
  show (StableHlo.after hostOps3_2 (StableHlo.after hostOps3_1 (StableHlo.after hostOps3 (W8 m ρ c)))) (Proc.devRef .tc main_arg3) = _
  dsimp only [hostOps3_2, hostOps3_1, hostOps3]
  after_results
  exact w8_arg3 m ρ c
theorem w11_arg12 : W11 m ρ c (Proc.devRef .tc main_arg12) = A12 m c := by
  show (StableHlo.after hostOps3_2 (StableHlo.after hostOps3_1 (StableHlo.after hostOps3 (W8 m ρ c)))) (Proc.devRef .tc main_arg12) = _
  dsimp only [hostOps3_2, hostOps3_1, hostOps3]
  after_results
  exact w8_arg12 m ρ c
theorem w11_arg14 : W11 m ρ c (Proc.devRef .tc main_arg14) = A14 m c := by
  show (StableHlo.after hostOps3_2 (StableHlo.after hostOps3_1 (StableHlo.after hostOps3 (W8 m ρ c)))) (Proc.devRef .tc main_arg14) = _
  dsimp only [hostOps3_2, hostOps3_1, hostOps3]
  after_results
  exact w8_arg14 m ρ c

/-! ## The contents after region 3 -/

theorem w12_v43 : W12 m ρ c (Proc.devRef .tc main_v43) = h2 (A0 m c) (A1 m c) (A2 m c) (A4 m c) (A5 m c) (A6 m c) (A7 m c) (A8 m c) (A9 m c) (A10 m c) (A11 m c) (A12 m c) (A13 m c) (A14 m c) (A15 m c) :=
  (W12_arr m ρ c 6).trans ((Cert.KernelIdeal.NodeMlp3.final (V11 m ρ) c).trans (by
    show Cert.Gine.mlp 500000 64 128 128 (W11 m ρ c (Proc.devRef .tc main_v23)) (W11 m ρ c (Proc.devRef .tc main_v40)) (W11 m ρ c (Proc.devRef .tc main_arg12)) (W11 m ρ c (Proc.devRef .tc main_v41)) (W11 m ρ c (Proc.devRef .tc main_arg14)) (W11 m ρ c (Proc.devRef .tc main_v42)) = _
    rw [w11_v23 m ρ c, w11_v40 m ρ c, w11_arg12 m ρ c, w11_v41 m ρ c, w11_arg14 m ρ c, w11_v42 m ρ c]
    rfl))
theorem w12_arg3 : W12 m ρ c (Proc.devRef .tc main_arg3) = A3 m c :=
  (W12_of_ne m ρ c main_arg3 (by decide)).trans (w11_arg3 m ρ c)

/-! ## The contents after the host operations hostOps4 -/

theorem w13_v54 : W13 m ρ c (Proc.devRef .tc main_v54) = out (A0 m c) (A1 m c) (A2 m c) (A3 m c) (A4 m c) (A5 m c) (A6 m c) (A7 m c) (A8 m c) (A9 m c) (A10 m c) (A11 m c) (A12 m c) (A13 m c) (A14 m c) (A15 m c) := by
  show (StableHlo.after hostOps4 (W12 m ρ c)) (Proc.devRef .tc main_v54) = _
  dsimp only [hostOps4]
  after_results
  simp only [w12_v43 m ρ c, w12_arg3 m ρ c]
  first | done | rfl

end Cert.KernelIdeal.Chain

end
-- ==== Proof.RefStages.lean ====
/-
  The reference's four dense stages, each as the shared specification: an edge stage adds to the gathered node
  features an affine map of the edge attributes, and a node stage sends the rows of the sum of the node features and
  the aggregated messages through a two-layer perceptron. On the extended reals every operation is exact, so each
  product of matrices is a finite sum at every entry, a bias vector spread over the rows is the specification's
  one-row matrix, and the only law used is the associativity of addition.
-/
import proofs.«127828_j66297115181623_2_alg».proof.Proof.Gen.ReferenceIdeal.Read
import proofs.«127828_j66297115181623_2_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx

/-- The edge product of the first layer at an entry: the sum over the twelve attributes. -/
theorem dot_e1 (l : FVec Ideal S2000000x12 .f32) (r : FVec Ideal S12x44 .f32) (p : Fin 2000000) (q : Fin 44) :
    Host.dotGeneral (F := Ideal) dot_S2000000x12_S12x44_S2000000x44_1_0_0_1_n_n none l r (ix2 p q) = ∑ k : Fin 12, l (ix2 p k) * r (ix2 k q) := by
  simp only [Host.dotGeneral]
  rw [Ideal.dotGeneral_apply, ← Equiv.sum_comp (ValueIdx.contrEquiv1 dot_S2000000x12_S12x44_S2000000x44_1_0_0_1_n_n 12 rfl rfl).symm]
  refine Finset.sum_congr rfl fun k _ => ?_
  have hk := ValueIdx.contrEquiv1_symm_val dot_S2000000x12_S12x44_S2000000x44_1_0_0_1_n_n 12 rfl rfl k
  have el : dot_S2000000x12_S12x44_S2000000x44_1_0_0_1_n_n.lhsIdx (ix2 p q) ((ValueIdx.contrEquiv1 dot_S2000000x12_S12x44_S2000000x44_1_0_0_1_n_n 12 rfl rfl).symm k) = ix2 p k := funext fun a => Fin.ext (by
    match a with
    | ⟨0, _⟩ => exact lhs_main_v11_0 _ _
    | ⟨1, _⟩ => exact (lhs_main_v11_1 _ _).trans hk)
  have er : dot_S2000000x12_S12x44_S2000000x44_1_0_0_1_n_n.rhsIdx (ix2 p q) ((ValueIdx.contrEquiv1 dot_S2000000x12_S12x44_S2000000x44_1_0_0_1_n_n 12 rfl rfl).symm k) = ix2 k q := funext fun a => Fin.ext (by
    match a with
    | ⟨0, _⟩ => exact (rhs_main_v11_0 _ _).trans hk
    | ⟨1, _⟩ => exact rhs_main_v11_1 _ _)
  rw [el, er]

/-- The edge product of the second layer at an entry: the sum over the twelve attributes. -/
theorem dot_e2 (l : FVec Ideal S2000000x12 .f32) (r : FVec Ideal S12x64 .f32) (p : Fin 2000000) (q : Fin 64) :
    Host.dotGeneral (F := Ideal) dot_S2000000x12_S12x64_S2000000x64_1_0_0_1_n_n none l r (ix2 p q) = ∑ k : Fin 12, l (ix2 p k) * r (ix2 k q) := by
  simp only [Host.dotGeneral]
  rw [Ideal.dotGeneral_apply, ← Equiv.sum_comp (ValueIdx.contrEquiv1 dot_S2000000x12_S12x64_S2000000x64_1_0_0_1_n_n 12 rfl rfl).symm]
  refine Finset.sum_congr rfl fun k _ => ?_
  have hk := ValueIdx.contrEquiv1_symm_val dot_S2000000x12_S12x64_S2000000x64_1_0_0_1_n_n 12 rfl rfl k
  have el : dot_S2000000x12_S12x64_S2000000x64_1_0_0_1_n_n.lhsIdx (ix2 p q) ((ValueIdx.contrEquiv1 dot_S2000000x12_S12x64_S2000000x64_1_0_0_1_n_n 12 rfl rfl).symm k) = ix2 p k := funext fun a => Fin.ext (by
    match a with
    | ⟨0, _⟩ => exact lhs_main_v38_0 _ _
    | ⟨1, _⟩ => exact (lhs_main_v38_1 _ _).trans hk)
  have er : dot_S2000000x12_S12x64_S2000000x64_1_0_0_1_n_n.rhsIdx (ix2 p q) ((ValueIdx.contrEquiv1 dot_S2000000x12_S12x64_S2000000x64_1_0_0_1_n_n 12 rfl rfl).symm k) = ix2 k q := funext fun a => Fin.ext (by
    match a with
    | ⟨0, _⟩ => exact (rhs_main_v38_0 _ _).trans hk
    | ⟨1, _⟩ => exact rhs_main_v38_1 _ _)
  rw [el, er]

/-- The first layer's first node product at an entry: the sum over the 44 input features. -/
theorem dot_1a (l : FVec Ideal S500000x44 .f32) (r : FVec Ideal S44x64 .f32) (p : Fin 500000) (q : Fin 64) :
    Host.dotGeneral (F := Ideal) dot_S500000x44_S44x64_S500000x64_1_0_0_1_n_n none l r (ix2 p q) = ∑ k : Fin 44, l (ix2 p k) * r (ix2 k q) := by
  simp only [Host.dotGeneral]
  rw [Ideal.dotGeneral_apply, ← Equiv.sum_comp (ValueIdx.contrEquiv1 dot_S500000x44_S44x64_S500000x64_1_0_0_1_n_n 44 rfl rfl).symm]
  refine Finset.sum_congr rfl fun k _ => ?_
  have hk := ValueIdx.contrEquiv1_symm_val dot_S500000x44_S44x64_S500000x64_1_0_0_1_n_n 44 rfl rfl k
  have el : dot_S500000x44_S44x64_S500000x64_1_0_0_1_n_n.lhsIdx (ix2 p q) ((ValueIdx.contrEquiv1 dot_S500000x44_S44x64_S500000x64_1_0_0_1_n_n 44 rfl rfl).symm k) = ix2 p k := funext fun a => Fin.ext (by
    match a with
    | ⟨0, _⟩ => exact lhs_main_v21_0 _ _
    | ⟨1, _⟩ => exact (lhs_main_v21_1 _ _).trans hk)
  have er : dot_S500000x44_S44x64_S500000x64_1_0_0_1_n_n.rhsIdx (ix2 p q) ((ValueIdx.contrEquiv1 dot_S500000x44_S44x64_S500000x64_1_0_0_1_n_n 44 rfl rfl).symm k) = ix2 k q := funext fun a => Fin.ext (by
    match a with
    | ⟨0, _⟩ => exact (rhs_main_v21_0 _ _).trans hk
    | ⟨1, _⟩ => exact rhs_main_v21_1 _ _)
  rw [el, er]

/-- The first layer's second node product at an entry: the sum over the 64 hidden features. -/
theorem dot_1b (l : FVec Ideal S500000x64 .f32) (r : FVec Ideal S64x64 .f32) (p : Fin 500000) (q : Fin 64) :
    Host.dotGeneral (F := Ideal) dot_S500000x64_S64x64_S500000x64_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S500000x64_S64x64_S500000x64_1_0_0_1_n_n 64 rfl rfl).symm]
  refine Finset.sum_congr rfl fun k _ => ?_
  have hk := ValueIdx.contrEquiv1_symm_val dot_S500000x64_S64x64_S500000x64_1_0_0_1_n_n 64 rfl rfl k
  have el : dot_S500000x64_S64x64_S500000x64_1_0_0_1_n_n.lhsIdx (ix2 p q) ((ValueIdx.contrEquiv1 dot_S500000x64_S64x64_S500000x64_1_0_0_1_n_n 64 rfl rfl).symm k) = ix2 p k := funext fun a => Fin.ext (by
    match a with
    | ⟨0, _⟩ => exact lhs_main_v26_0 _ _
    | ⟨1, _⟩ => exact (lhs_main_v26_1 _ _).trans hk)
  have er : dot_S500000x64_S64x64_S500000x64_1_0_0_1_n_n.rhsIdx (ix2 p q) ((ValueIdx.contrEquiv1 dot_S500000x64_S64x64_S500000x64_1_0_0_1_n_n 64 rfl rfl).symm k) = ix2 k q := funext fun a => Fin.ext (by
    match a with
    | ⟨0, _⟩ => exact (rhs_main_v26_0 _ _).trans hk
    | ⟨1, _⟩ => exact rhs_main_v26_1 _ _)
  rw [el, er]

/-- The second layer's first node product at an entry: the sum over the 64 input features. -/
theorem dot_2a (l : FVec Ideal S500000x64 .f32) (r : FVec Ideal S64x128 .f32) (p : Fin 500000) (q : Fin 128) :
    Host.dotGeneral (F := Ideal) dot_S500000x64_S64x128_S500000x128_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S500000x64_S64x128_S500000x128_1_0_0_1_n_n 64 rfl rfl).symm]
  refine Finset.sum_congr rfl fun k _ => ?_
  have hk := ValueIdx.contrEquiv1_symm_val dot_S500000x64_S64x128_S500000x128_1_0_0_1_n_n 64 rfl rfl k
  have el : dot_S500000x64_S64x128_S500000x128_1_0_0_1_n_n.lhsIdx (ix2 p q) ((ValueIdx.contrEquiv1 dot_S500000x64_S64x128_S500000x128_1_0_0_1_n_n 64 rfl rfl).symm k) = ix2 p k := funext fun a => Fin.ext (by
    match a with
    | ⟨0, _⟩ => exact lhs_main_v48_0 _ _
    | ⟨1, _⟩ => exact (lhs_main_v48_1 _ _).trans hk)
  have er : dot_S500000x64_S64x128_S500000x128_1_0_0_1_n_n.rhsIdx (ix2 p q) ((ValueIdx.contrEquiv1 dot_S500000x64_S64x128_S500000x128_1_0_0_1_n_n 64 rfl rfl).symm k) = ix2 k q := funext fun a => Fin.ext (by
    match a with
    | ⟨0, _⟩ => exact (rhs_main_v48_0 _ _).trans hk
    | ⟨1, _⟩ => exact rhs_main_v48_1 _ _)
  rw [el, er]

/-- The second layer's second node product at an entry: the sum over the 128 hidden features. -/
theorem dot_2b (l : FVec Ideal S500000x128 .f32) (r : FVec Ideal S128x128 .f32) (p : Fin 500000) (q : Fin 128) :
    Host.dotGeneral (F := Ideal) dot_S500000x128_S128x128_S500000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S500000x128_S128x128_S500000x128_1_0_0_1_n_n 128 rfl rfl).symm]
  refine Finset.sum_congr rfl fun k _ => ?_
  have hk := ValueIdx.contrEquiv1_symm_val dot_S500000x128_S128x128_S500000x128_1_0_0_1_n_n 128 rfl rfl k
  have el : dot_S500000x128_S128x128_S500000x128_1_0_0_1_n_n.lhsIdx (ix2 p q) ((ValueIdx.contrEquiv1 dot_S500000x128_S128x128_S500000x128_1_0_0_1_n_n 128 rfl rfl).symm k) = ix2 p k := funext fun a => Fin.ext (by
    match a with
    | ⟨0, _⟩ => exact lhs_main_v53_0 _ _
    | ⟨1, _⟩ => exact (lhs_main_v53_1 _ _).trans hk)
  have er : dot_S500000x128_S128x128_S500000x128_1_0_0_1_n_n.rhsIdx (ix2 p q) ((ValueIdx.contrEquiv1 dot_S500000x128_S128x128_S500000x128_1_0_0_1_n_n 128 rfl rfl).symm k) = ix2 k q := funext fun a => Fin.ext (by
    match a with
    | ⟨0, _⟩ => exact (rhs_main_v53_0 _ _).trans hk
    | ⟨1, _⟩ => exact rhs_main_v53_1 _ _)
  rw [el, er]

/-- A bias vector spread over the 2000000 rows, at an entry: the vector's entry at the column. -/
theorem bias_e1 (b : FVec Ideal S44 .f32) (p : Fin 2000000) (q : Fin 44) :
    broadcastInDim S2000000x44 ![0, 1] bcast_S1x44_S2000000x44_0_1 (broadcastInDim S1x44 ![1] bcast_S44_S1x44_1 b) (ix2 p q)
      = Cert.Gine.row b (ix2 (0 : Fin 1) q) := by
  refine (val_main_v14_apply (F := Ideal) b (ix2 p q)).trans ?_
  refine (val_main_v13_apply (F := Ideal) b _).trans ?_
  exact congrArg b (funext fun a => Fin.ext (by match a with | ⟨0, _⟩ => rfl))

/-- A bias vector spread over the 2000000 rows, at an entry: the vector's entry at the column. -/
theorem bias_e2 (b : FVec Ideal S64 .f32) (p : Fin 2000000) (q : Fin 64) :
    broadcastInDim S2000000x64 ![0, 1] bcast_S1x64_S2000000x64_0_1 (broadcastInDim S1x64 ![1] bcast_S64_S1x64_1 b) (ix2 p q)
      = Cert.Gine.row b (ix2 (0 : Fin 1) q) := by
  refine (val_main_v41_apply (F := Ideal) b (ix2 p q)).trans ?_
  refine (val_main_v40_apply (F := Ideal) b _).trans ?_
  exact congrArg b (funext fun a => Fin.ext (by match a with | ⟨0, _⟩ => rfl))

/-- A bias vector spread over the 500000 rows, at an entry: the vector's entry at the column. -/
theorem bias_n1 (b : FVec Ideal S64 .f32) (p : Fin 500000) (q : Fin 64) :
    broadcastInDim S500000x64 ![0, 1] bcast_S1x64_S500000x64_0_1 (broadcastInDim S1x64 ![1] bcast_S64_S1x64_1 b) (ix2 p q)
      = Cert.Gine.row b (ix2 (0 : Fin 1) q) := by
  refine (val_main_v23_apply (F := Ideal) b (ix2 p q)).trans ?_
  refine (val_main_v22_apply (F := Ideal) b _).trans ?_
  exact congrArg b (funext fun a => Fin.ext (by match a with | ⟨0, _⟩ => rfl))

/-- A bias vector spread over the 500000 rows, at an entry: the vector's entry at the column. -/
theorem bias_n2 (b : FVec Ideal S128 .f32) (p : Fin 500000) (q : Fin 128) :
    broadcastInDim S500000x128 ![0, 1] bcast_S1x128_S500000x128_0_1 (broadcastInDim S1x128 ![1] bcast_S128_S1x128_1 b) (ix2 p q)
      = Cert.Gine.row b (ix2 (0 : Fin 1) q) := by
  refine (val_main_v50_apply (F := Ideal) b (ix2 p q)).trans ?_
  refine (val_main_v49_apply (F := Ideal) b _).trans ?_
  exact congrArg b (funext fun a => Fin.ext (by match a with | ⟨0, _⟩ => rfl))

/-- The zero constant spread over the whole array, at an entry. -/
theorem zero_n1 (i : S500000x64.Idx) :
    broadcastInDim S500000x64 ![] bcast_S_S500000x64 (constant (F := Ideal) S_ .f32 0x00000000#32) i = 0 := by
  refine (val_main_call1_v0_apply (F := Ideal) i).trans ?_
  exact Ideal.ofBits_zero_f32

/-- The zero constant spread over the whole array, at an entry. -/
theorem zero_n2 (i : S500000x128.Idx) :
    broadcastInDim S500000x128 ![] bcast_S_S500000x128 (constant (F := Ideal) S_ .f32 0x00000000#32) i = 0 := by
  refine (val_main_call4_v0_apply (F := Ideal) i).trans ?_
  exact Ideal.ofBits_zero_f32

/-- The first layer's edge stage: the gathered features plus the attributes' product, plus the bias, is the gathered
    features plus the affine map of the attributes (addition is associative on the extended reals). -/
theorem edge1 (g : FVec Ideal S2000000x44 .f32) (a : FVec Ideal S2000000x12 .f32) (w : FVec Ideal S12x44 .f32) (b : FVec Ideal S44 .f32) :
    addf (addf g (Host.dotGeneral (F := Ideal) dot_S2000000x12_S12x44_S2000000x44_1_0_0_1_n_n none a w)) (broadcastInDim S2000000x44 ![0, 1] bcast_S1x44_S2000000x44_0_1 (broadcastInDim S1x44 ![1] bcast_S44_S1x44_1 b))
      = addf g (Cert.Gine.affine 2000000 12 44 a w (Cert.Gine.row b)) := by
  funext i
  obtain ⟨p, q, rfl⟩ : ∃ (p : Fin 2000000) (q : Fin 44), i = ix2 p q := ⟨i 0, i 1, eq_ix2 i⟩
  rw [addf_apply, addf_apply, addf_apply, dot_e1, bias_e1, Cert.Gine.affine_apply, add_assoc]

/-- The second layer's edge stage, likewise. -/
theorem edge2 (g : FVec Ideal S2000000x64 .f32) (a : FVec Ideal S2000000x12 .f32) (w : FVec Ideal S12x64 .f32) (b : FVec Ideal S64 .f32) :
    addf (addf g (Host.dotGeneral (F := Ideal) dot_S2000000x12_S12x64_S2000000x64_1_0_0_1_n_n none a w)) (broadcastInDim S2000000x64 ![0, 1] bcast_S1x64_S2000000x64_0_1 (broadcastInDim S1x64 ![1] bcast_S64_S1x64_1 b))
      = addf g (Cert.Gine.affine 2000000 12 64 a w (Cert.Gine.row b)) := by
  funext i
  obtain ⟨p, q, rfl⟩ : ∃ (p : Fin 2000000) (q : Fin 64), i = ix2 p q := ⟨i 0, i 1, eq_ix2 i⟩
  rw [addf_apply, addf_apply, addf_apply, dot_e2, bias_e2, Cert.Gine.affine_apply, add_assoc]

/-- The first layer's node stage: product, bias, clip at zero, product, bias, clip at zero is the clipped
    two-layer perceptron of the specification, entry by entry. -/
theorem layer1 (x agg : FVec Ideal S500000x44 .f32) (wa : FVec Ideal S44x64 .f32) (ba : FVec Ideal S64 .f32) (wb : FVec Ideal S64x64 .f32) (bb : FVec Ideal S64 .f32) :
    maximumf (addf (Host.dotGeneral (F := Ideal) dot_S500000x64_S64x64_S500000x64_1_0_0_1_n_n none (maximumf (addf (Host.dotGeneral (F := Ideal) dot_S500000x44_S44x64_S500000x64_1_0_0_1_n_n none (addf x agg) wa) (broadcastInDim S500000x64 ![0, 1] bcast_S1x64_S500000x64_0_1 (broadcastInDim S1x64 ![1] bcast_S64_S1x64_1 ba))) (broadcastInDim S500000x64 ![] bcast_S_S500000x64 (constant (F := Ideal) S_ .f32 0x00000000#32))) wb) (broadcastInDim S500000x64 ![0, 1] bcast_S1x64_S500000x64_0_1 (broadcastInDim S1x64 ![1] bcast_S64_S1x64_1 bb))) (broadcastInDim S500000x64 ![] bcast_S_S500000x64 (constant (F := Ideal) S_ .f32 0x00000000#32))
      = Cert.Gine.relu (Cert.Gine.mlp 500000 44 64 64 x agg wa (Cert.Gine.row ba) wb (Cert.Gine.row bb)) := by
  funext i
  obtain ⟨p, q, rfl⟩ : ∃ (p : Fin 500000) (q : Fin 64), i = ix2 p q := ⟨i 0, i 1, eq_ix2 i⟩
  rw [maximumf_apply, addf_apply, dot_1b, bias_n1, zero_n1]
  show _ = max (Cert.Gine.mlp 500000 44 64 64 x agg wa (Cert.Gine.row ba) wb (Cert.Gine.row bb) (ix2 p q)) 0
  rw [Cert.Gine.mlp_apply]
  refine congrArg (fun t => max (t + Cert.Gine.row bb (ix2 (0 : Fin 1) q)) 0) ?_
  refine Finset.sum_congr rfl fun k _ => ?_
  rw [maximumf_apply, addf_apply, dot_1a, bias_n1, zero_n1]
  rfl

/-- The second layer's node stage: product, bias, clip at zero, product, bias is the two-layer perceptron of the
    specification, entry by entry. -/
theorem layer2 (x agg : FVec Ideal S500000x64 .f32) (wa : FVec Ideal S64x128 .f32) (ba : FVec Ideal S128 .f32) (wb : FVec Ideal S128x128 .f32) (bb : FVec Ideal S128 .f32) :
    addf (Host.dotGeneral (F := Ideal) dot_S500000x128_S128x128_S500000x128_1_0_0_1_n_n none (maximumf (addf (Host.dotGeneral (F := Ideal) dot_S500000x64_S64x128_S500000x128_1_0_0_1_n_n none (addf x agg) wa) (broadcastInDim S500000x128 ![0, 1] bcast_S1x128_S500000x128_0_1 (broadcastInDim S1x128 ![1] bcast_S128_S1x128_1 ba))) (broadcastInDim S500000x128 ![] bcast_S_S500000x128 (constant (F := Ideal) S_ .f32 0x00000000#32))) wb) (broadcastInDim S500000x128 ![0, 1] bcast_S1x128_S500000x128_0_1 (broadcastInDim S1x128 ![1] bcast_S128_S1x128_1 bb))
      = Cert.Gine.mlp 500000 64 128 128 x agg wa (Cert.Gine.row ba) wb (Cert.Gine.row bb) := by
  funext i
  obtain ⟨p, q, rfl⟩ : ∃ (p : Fin 500000) (q : Fin 128), i = ix2 p q := ⟨i 0, i 1, eq_ix2 i⟩
  rw [addf_apply, dot_2b, bias_n2, Cert.Gine.mlp_apply]
  refine congrArg (fun t => t + Cert.Gine.row bb (ix2 (0 : Fin 1) q)) ?_
  refine Finset.sum_congr rfl fun k _ => ?_
  rw [maximumf_apply, addf_apply, dot_2a, bias_n2, zero_n2]
  rfl

end Cert.ReferenceIdeal.Stages

end
-- ==== Proof.Bridge.lean ====
/-
  The reference program's result is the kernel program's result, as functions of the sixteen argument arrays.

  Both are the same chain of host operations around the same four dense stages of the shared specification. On the
  extended reals a change of float format is the identity, so the kernel side's narrowing and widening of the
  messages drop out, and a bias vector cast to a one-row matrix is the specification's one-row matrix. What is left
  on the two sides differs only in the names of equal dimension records.
-/
import proofs.«127828_j66297115181623_2_alg».proof.Proof.RefStages
import proofs.«127828_j66297115181623_2_alg».proof.Proof.KSpec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Idealize.SL.Sem Idealize.ShloMosaic.StableHlo

/-- Widening a 16-bit array to 32 bits is the identity on the extended reals. -/
theorem extf_id {s : Shape} (a : FVec Ideal s .bf16) (h : FTy.bf16.bits < FTy.f32.bits) :
    (extf .f32 a h : FVec Ideal s .f32) = a := rfl

/-- Narrowing a 32-bit array to 16 bits is the identity on the extended reals. -/
theorem truncf_id {s : Shape} (a : FVec Ideal s .f32) (h : FTy.bf16.bits < FTy.f32.bits) :
    (truncf .bf16 a h : FVec Ideal s .bf16) = a := rfl

/-- A vector cast to a one-row matrix is the specification's one-row matrix. -/
theorem row_cast {d : Nat} (b : FVec Ideal ⟨1, ![d]⟩ .f32) (h : (⟨1, ![d]⟩ : Shape).ShapeCasts ⟨2, ![1, d]⟩) :
    shapeCast ⟨2, ![1, d]⟩ b h = Cert.Gine.row b := by
  funext j
  obtain ⟨u, i, rfl⟩ : ∃ (u : Fin 1) (i : Fin d), j = ix2 u i := ⟨j 0, j 1, eq_ix2 j⟩
  exact shapeCast_a_1a_apply b h u i

/-- The 44-entry bias as a one-row matrix. -/
theorem row44 (b : FVec Ideal Cert.KernelIdeal.S44 .f32) :
    shapeCast Cert.KernelIdeal.S1x44 b Cert.KernelIdeal.Gen.shapeCasts_S44_S1x44 = Cert.Gine.row b := row_cast b _

/-- A 64-entry bias as a one-row matrix. -/
theorem row64 (b : FVec Ideal Cert.KernelIdeal.S64 .f32) :
    shapeCast Cert.KernelIdeal.S1x64 b Cert.KernelIdeal.Gen.shapeCasts_S64_S1x64 = Cert.Gine.row b := row_cast b _

/-- A 128-entry bias as a one-row matrix. -/
theorem row128 (b : FVec Ideal Cert.KernelIdeal.S128 .f32) :
    shapeCast Cert.KernelIdeal.S1x128 b Cert.KernelIdeal.Gen.shapeCasts_S128_S1x128 = Cert.Gine.row b := row_cast b _

/-- The reference's result term is the kernel program's result function at the same sixteen arguments: rewrite the
    reference's four dense stages into the specification, drop the format changes and turn the cast bias vectors into
    one-row matrices on the kernel side; the two terms are then the same up to the names of equal records. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v67 m c
      = Cert.KernelIdeal.Whole.out
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15)) := by
  conv_lhs => unfold Cert.ReferenceIdeal.Value.res_main_v67
  rw [Cert.ReferenceIdeal.Stages.layer2, Cert.ReferenceIdeal.Stages.layer1, Cert.ReferenceIdeal.Stages.edge1, Cert.ReferenceIdeal.Stages.edge2]
  unfold Cert.KernelIdeal.Whole.out Cert.KernelIdeal.Whole.h2 Cert.KernelIdeal.Whole.agg2 Cert.KernelIdeal.Whole.lin2 Cert.KernelIdeal.Whole.h1 Cert.KernelIdeal.Whole.agg1 Cert.KernelIdeal.Whole.lin1 Cert.KernelIdeal.Whole.srcIdx Cert.KernelIdeal.Whole.dstIdx Cert.KernelIdeal.Whole.srcRaw Cert.KernelIdeal.Whole.dstRaw
  simp only [extf_id, truncf_id, row44, row64, row128]
  rfl

end Cert.Bridge

end
-- ==== Proof.lean ====
/-
  The certificate. The kernel program and the reference compute, at the ideal values, the same function of their
  sixteen argument arrays: a two-layer graph network followed by the mean over each graph. In both, an edge's message
  is the clip at zero of its source node's features plus an affine map of its attributes, the messages are summed at
  the target nodes, and every node goes through a two-layer perceptron. The kernel program computes the affine map and
  the perceptron in pipelined regions, block of rows by block of rows, and adds the bias to the edge product before the
  source features where the reference adds it after; addition on the extended reals is associative, so the two agree,
  with no appeal to finiteness. The frames are the generated ones; the reference's is its generated run with the result
  dropped; the idealization rewrote nothing, so there is nothing to preserve.
-/
import proofs.«127828_j66297115181623_2_alg».proof.Defs
import proofs.«127828_j66297115181623_2_alg».proof.Proof.Gen.Kernel
import proofs.«127828_j66297115181623_2_alg».proof.Proof.Gen.Kernel.Skeleton
import proofs.«127828_j66297115181623_2_alg».proof.Proof.Gen.Kernel.Launch
import proofs.«127828_j66297115181623_2_alg».proof.Proof.Gen.Kernel.Points
import proofs.«127828_j66297115181623_2_alg».proof.Proof.Gen.Kernel.Frame
import proofs.«127828_j66297115181623_2_alg».proof.Proof.Gen.KernelIdeal
import proofs.«127828_j66297115181623_2_alg».proof.Proof.Gen.KernelIdeal.Skeleton
import proofs.«127828_j66297115181623_2_alg».proof.Proof.Gen.KernelIdeal.Launch
import proofs.«127828_j66297115181623_2_alg».proof.Proof.Gen.KernelIdeal.Points
import proofs.«127828_j66297115181623_2_alg».proof.Proof.Gen.KernelIdeal.Frame
import proofs.«127828_j66297115181623_2_alg».proof.Proof.Gen.ReferenceIdeal
import proofs.«127828_j66297115181623_2_alg».proof.Proof.Gen.ReferenceIdeal.Run
import proofs.«127828_j66297115181623_2_alg».proof.Proof.Gen.ReferenceIdeal.Read
import proofs.«127828_j66297115181623_2_alg».proof.Proof.Gen.Pre_finite_inputs
import proofs.«127828_j66297115181623_2_alg».proof.Proof.KRun
import proofs.«127828_j66297115181623_2_alg».proof.Proof.Chain
import proofs.«127828_j66297115181623_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the whole network of the argument arrays: the kernel program by
    following its buffers through its stretches, the reference by reading its run's term stage by stage; the argument
    arrays agree at launch. -/
theorem algebraic : Cert.algebraic_KernelIdeal_ReferenceIdeal := by
  intro m ρ m' ρ' _ hagree
  refine ⟨fun c => Cert.KernelIdeal.Whole.out (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c) (Cert.KernelIdeal.Chain.A15 m c), ?_, ?_⟩
  · exact (θ_run Cert.KernelIdeal.defs _ _).mono
      (fun r h c => ⟨(h c).1.trans (Cert.KernelIdeal.Chain.w13_v54 m ρ c), (h c).2⟩)
      (Cert.KernelIdeal.RunValue.run_result m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15⟩ := hagree c
    rw [(h c).1, Cert.Bridge.result_eq m' c, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
